-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x60000x64 : Shape := ⟨3, ![2, 60000, 64]⟩
abbrev S2x60000x16 : Shape := ⟨3, ![2, 60000, 16]⟩
abbrev S2x60000x16x16 : Shape := ⟨4, ![2, 60000, 16, 16]⟩
abbrev S2x60000x16x3 : Shape := ⟨4, ![2, 60000, 16, 3]⟩
abbrev S128x1072 : Shape := ⟨2, ![128, 1072]⟩
abbrev S128 : Shape := ⟨1, ![128]⟩
abbrev S_ : Shape := ⟨0, ![]⟩

class Facts : Prop where
  bcast_S_S2x60000x64 : S_.BroadcastsInDim S2x60000x64 (![] : Fin 0 → Fin S2x60000x64.rank)
  reducesTo_S2x60000x64_S_d0_1_2 : S2x60000x64.ReducesTo [0, 1, 2] S_
  h_S_ : 0 < S_.numel
  bcast_S_S2x60000x16x16 : S_.BroadcastsInDim S2x60000x16x16 (![] : Fin 0 → Fin S2x60000x16x16.rank)
  reducesTo_S2x60000x16x16_S_d0_1_2_3 : S2x60000x16x16.ReducesTo [0, 1, 2, 3] S_
  bcast_S_S2x60000x16x3 : S_.BroadcastsInDim S2x60000x16x3 (![] : Fin 0 → Fin S2x60000x16x3.rank)
  reducesTo_S2x60000x16x3_S_d0_1_2_3 : S2x60000x16x3.ReducesTo [0, 1, 2, 3] S_
  bcast_S_S128x1072 : S_.BroadcastsInDim S128x1072 (![] : Fin 0 → Fin S128x1072.rank)
  reducesTo_S128x1072_S_d0_1 : S128x1072.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x1072 1) : IVec S_ 1 :=
  let main_c_5 : IVec S_ 1 := constantI S_ 1 1#1
  let main_v17 : IVec S_ 1 := (fun x v => Host.reduce IntOp.andi x v reducesTo_S128x1072_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S2x60000x64 .f32) (main_arg1 : IVec S2x60000x16 32) (main_arg2 : FVec F S2x60000x16x16 .f32) (main_arg3 : FVec F S2x60000x16x3 .f32) (main_arg4 : FVec F S128x1072 .f32) (main_arg5 : FVec F S128 .f32) : IVec S_ 1 :=
  let main_v0 : FVec F S2x60000x64 .f32 := Host.absf main_arg0
  let main_cst : FVec F S_ .f32 := constant S_ .f32 0x7F800000#32
  let main_v1 : FVec F S2x60000x64 .f32 := broadcastInDim S2x60000x64 ![] bcast_S_S2x60000x64 main_cst
  let main_v2 : IVec S2x60000x64 1 := cmpf .olt main_v0 main_v1
  let main_c : IVec S_ 1 := constantI S_ 1 1#1
  let main_v3 : IVec S_ 1 := (fun x v => Host.reduce IntOp.andi x v reducesTo_S2x60000x64_S_d0_1_2 h_S_) main_v2 main_c
  let main_v4 : FVec F S2x60000x16x16 .f32 := Host.absf main_arg2
  let main_cst_0 : FVec F S_ .f32 := constant S_ .f32 0x7F800000#32
  let main_v5 : FVec F S2x60000x16x16 .f32 := broadcastInDim S2x60000x16x16 ![] bcast_S_S2x60000x16x16 main_cst_0
  let main_v6 : IVec S2x60000x16x16 1 := cmpf .olt main_v4 main_v5
  let main_c_1 : IVec S_ 1 := constantI S_ 1 1#1
  let main_v7 : IVec S_ 1 := (fun x v => Host.reduce IntOp.andi x v reducesTo_S2x60000x16x16_S_d0_1_2_3 h_S_) main_v6 main_c_1
  let main_v8 : IVec S_ 1 := andi main_v3 main_v7
  let main_v9 : FVec F S2x60000x16x3 .f32 := Host.absf main_arg3
  let main_cst_2 : FVec F S_ .f32 := constant S_ .f32 0x7F800000#32
  let main_v10 : FVec F S2x60000x16x3 .f32 := broadcastInDim S2x60000x16x3 ![] bcast_S_S2x60000x16x3 main_cst_2
  let main_v11 : IVec S2x60000x16x3 1 := cmpf .olt main_v9 main_v10
  let main_c_3 : IVec S_ 1 := constantI S_ 1 1#1
  let main_v12 : IVec S_ 1 := (fun x v => Host.reduce IntOp.andi x v reducesTo_S2x60000x16x3_S_d0_1_2_3 h_S_) main_v11 main_c_3
  let main_v13 : IVec S_ 1 := andi main_v8 main_v12
  let main_v14 : FVec F S128x1072 .f32 := Host.absf main_arg4
  let main_cst_4 : FVec F S_ .f32 := constant S_ .f32 0x7F800000#32
  let main_v15 : FVec F S128x1072 .f32 := broadcastInDim S128x1072 ![] bcast_S_S128x1072 main_cst_4
  let main_v16 : IVec S128x1072 1 := cmpf .olt main_v14 main_v15
  fn_part1 (F := F) main_arg5 main_v13 main_v16
-- ==== Kernel.lean ====
abbrev S2x60000x64 : Shape := ⟨3, ![2, 60000, 64]⟩
abbrev S2x60000x16 : Shape := ⟨3, ![2, 60000, 16]⟩
abbrev S2x60000x16x16 : Shape := ⟨4, ![2, 60000, 16, 16]⟩
abbrev S2x60000x16x3 : Shape := ⟨4, ![2, 60000, 16, 3]⟩
abbrev S128x1072 : Shape := ⟨2, ![128, 1072]⟩
abbrev S128 : Shape := ⟨1, ![128]⟩
abbrev S_ : Shape := ⟨0, ![]⟩
abbrev S2x60000x16x1 : Shape := ⟨4, ![2, 60000, 16, 1]⟩
abbrev S2x60000x16x64 : Shape := ⟨4, ![2, 60000, 16, 64]⟩
abbrev S128x1024 : Shape := ⟨2, ![128, 1024]⟩
abbrev S1024x128 : Shape := ⟨2, ![1024, 128]⟩
abbrev S128x48 : Shape := ⟨2, ![128, 48]⟩
abbrev S48x128 : Shape := ⟨2, ![48, 128]⟩
abbrev S1x128 : Shape := ⟨2, ![1, 128]⟩
abbrev S2x60000x128 : Shape := ⟨3, ![2, 60000, 128]⟩
abbrev S1x240x16x64 : Shape := ⟨4, ![1, 240, 16, 64]⟩
abbrev S1x240x16x3 : Shape := ⟨4, ![1, 240, 16, 3]⟩
abbrev S1x240x16x16 : Shape := ⟨4, ![1, 240, 16, 16]⟩
abbrev S1x240x128 : Shape := ⟨3, ![1, 240, 128]⟩
abbrev S240x16x64 : Shape := ⟨3, ![240, 16, 64]⟩
abbrev S240x16x3 : Shape := ⟨3, ![240, 16, 3]⟩
abbrev S240x16x16 : Shape := ⟨3, ![240, 16, 16]⟩
abbrev S240x64x16 : Shape := ⟨3, ![240, 64, 16]⟩
abbrev S240x3x16 : Shape := ⟨3, ![240, 3, 16]⟩
abbrev S240x1024 : Shape := ⟨2, ![240, 1024]⟩
abbrev S240x48 : Shape := ⟨2, ![240, 48]⟩
abbrev S240x128 : Shape := ⟨2, ![240, 128]⟩

abbrev nBuf : Space → Nat
  | .hbm => 21
  | .vmem => 11
  | .smem => 0
  | _ => 0

abbrev bufTy : (tb : Table) → Fin (tcTables nBuf tb) → BufTy
  | .hbm, ⟨0, _⟩ => ⟨S2x60000x64, .f32⟩
  | .hbm, ⟨1, _⟩ => ⟨S2x60000x16, .i32⟩
  | .hbm, ⟨2, _⟩ => ⟨S2x60000x16x16, .f32⟩
  | .hbm, ⟨3, _⟩ => ⟨S2x60000x16x3, .f32⟩
  | .hbm, ⟨4, _⟩ => ⟨S128x1072, .f32⟩
  | .hbm, ⟨5, _⟩ => ⟨S128, .f32⟩
  | .hbm, ⟨6, _⟩ => ⟨S_, .i32⟩
  | .hbm, ⟨7, _⟩ => ⟨S2x60000x16, .i32⟩
  | .hbm, ⟨8, _⟩ => ⟨S2x60000x16, .i1⟩
  | .hbm, ⟨9, _⟩ => ⟨S_, .i32⟩
  | .hbm, ⟨10, _⟩ => ⟨S2x60000x16, .i32⟩
  | .hbm, ⟨11, _⟩ => ⟨S2x60000x16, .i32⟩
  | .hbm, ⟨12, _⟩ => ⟨S2x60000x16, .i32⟩
  | .hbm, ⟨13, _⟩ => ⟨S2x60000x16x1, .i32⟩
  | .hbm, ⟨14, _⟩ => ⟨S2x60000x16x64, .f32⟩
  | .hbm, ⟨15, _⟩ => ⟨S128x1024, .f32⟩
  | .hbm, ⟨16, _⟩ => ⟨S1024x128, .f32⟩
  | .hbm, ⟨17, _⟩ => ⟨S128x48, .f32⟩
  | .hbm, ⟨18, _⟩ => ⟨S48x128, .f32⟩
  | .hbm, ⟨19, _⟩ => ⟨S1x128, .f32⟩
  | .hbm, ⟨20, _⟩ => ⟨S2x60000x128, .f32⟩
  | .local _ .vmem, ⟨0, _⟩ => ⟨S1x240x16x64, .f32⟩
  | .local _ .vmem, ⟨1, _⟩ => ⟨S1x240x16x64, .f32⟩
  | .local _ .vmem, ⟨2, _⟩ => ⟨S1x240x16x3, .f32⟩
  | .local _ .vmem, ⟨3, _⟩ => ⟨S1x240x16x3, .f32⟩
  | .local _ .vmem, ⟨4, _⟩ => ⟨S1x240x16x16, .f32⟩
  | .local _ .vmem, ⟨5, _⟩ => ⟨S1x240x16x16, .f32⟩
  | .local _ .vmem, ⟨6, _⟩ => ⟨S1024x128, .f32⟩
  | .local _ .vmem, ⟨7, _⟩ => ⟨S48x128, .f32⟩
  | .local _ .vmem, ⟨8, _⟩ => ⟨S1x128, .f32⟩
  | .local _ .vmem, ⟨9, _⟩ => ⟨S1x240x128, .f32⟩
  | .local _ .vmem, ⟨10, _⟩ => ⟨S1x240x128, .f32⟩
  | _, _ => ⟨S2x60000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 250], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x240x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x240x16x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x240x16x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S48x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x240x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bcast_S_S2x60000x16 : S_.BroadcastsInDim S2x60000x16 (![] : Fin 0 → Fin S2x60000x16.rank)
  bcast_S2x60000x16_S2x60000x16x1_0_1_2 : S2x60000x16.BroadcastsInDim S2x60000x16x1 (![0, 1, 2] : Fin 3 → Fin S2x60000x16x1.rank)
  slices_S128x1072_S128x1024_0_0 : S128x1072.Slices ![0, 0] S128x1024
  transposes_S128x1024_S1024x128_1_0 : S128x1024.Transposes [1, 0] S1024x128
  slices_S128x1072_S128x48_0_1024 : S128x1072.Slices ![0, 1024] S128x48
  transposes_S128x48_S48x128_1_0 : S128x48.Transposes [1, 0] S48x128
  shapeCasts_S128_S1x128 : S128.ShapeCasts S1x128
  inb_S1x240x16x64_S1x240x16x64_0_0_0_0 : ∀ a, (![0, 0, 0, 0] : Fin 4 → Nat) a + S1x240x16x64.size a ≤ S1x240x16x64.size a
  h_S1x240x16x64 : 0 < S1x240x16x64.numel
  shapeCasts_S1x240x16x64_S240x16x64 : S1x240x16x64.ShapeCasts S240x16x64
  bitsLt_bf16_f32 : FTy.bits .bf16 < FTy.bits .f32
  inb_S1x240x16x3_S1x240x16x3_0_0_0_0 : ∀ a, (![0, 0, 0, 0] : Fin 4 → Nat) a + S1x240x16x3.size a ≤ S1x240x16x3.size a
  h_S1x240x16x3 : 0 < S1x240x16x3.numel
  shapeCasts_S1x240x16x3_S240x16x3 : S1x240x16x3.ShapeCasts S240x16x3
  inb_S1x240x16x16_S1x240x16x16_0_0_0_0 : ∀ a, (![0, 0, 0, 0] : Fin 4 → Nat) a + S1x240x16x16.size a ≤ S1x240x16x16.size a
  h_S1x240x16x16 : 0 < S1x240x16x16.numel
  shapeCasts_S1x240x16x16_S240x16x16 : S1x240x16x16.ShapeCasts S240x16x16
  shapeCasts_S240x64x16_S240x1024 : S240x64x16.ShapeCasts S240x1024
  shapeCasts_S240x3x16_S240x48 : S240x3x16.ShapeCasts S240x48
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S48x128_S48x128_0_0 : ∀ a, (![0, 0] : Fin 2 → Nat) a + S48x128.size a ≤ S48x128.size a
  h_S48x128 : 0 < S48x128.numel
  shapeCasts_S48x128_S48x128 : S48x128.ShapeCasts S48x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S240x128 : S1x128.Broadcasts S240x128
  inb_S1x240x128_S1x240x128_0_0_0 : ∀ a, (![0, 0, 0] : Fin 3 → Nat) a + S1x240x128.size a ≤ S1x240x128.size a
  h_S1x240x128 : 0 < S1x240x128.numel
  shapeCasts_S1x240x128_S240x128 : S1x240x128.ShapeCasts S240x128
  shapeCasts_S240x128_S1x240x128 : S240x128.ShapeCasts S1x240x128
  gather_S2x60000x64_S2x60000x16x1_S2x60000x16x64_3_1_0_0_1_3_1164_wf : GatherDims.WF S2x60000x64 S2x60000x16x1 S2x60000x16x64 [3] [1] [0] [1] [0] 3 ![1, 1, 64]
  dot_S240x16x64_S240x16x16_S240x64x16_1_1_2_2_0_0_wf : DotDims.WF S240x16x64 S240x16x16 S240x64x16 [1] [1] [2] [2] [0] [0]
  dot_S240x16x3_S240x16x16_S240x3x16_1_1_2_2_0_0_wf : DotDims.WF S240x16x3 S240x16x16 S240x3x16 [1] [1] [2] [2] [0] [0]
  dot_S240x1024_S1024x128_S240x128_1_0_0_1_n_n_wf : DotDims.WF S240x1024 S1024x128 S240x128 [1] [0] [0] [1] [] []
  dot_S240x48_S48x128_S240x128_1_0_0_1_n_n_wf : DotDims.WF S240x48 S48x128 S240x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x240x16x64.size a ≤ S2x60000x16x64.size a
  hwx0_0 : ∀ i : grid0.Coords, EltTy.bits .f32 = 32 ∨ (Rect.block (s := S2x60000x16x64) S1x240x16x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x240x16x3.size a ≤ S2x60000x16x3.size a
  hwx0_1 : ∀ i : grid0.Coords, EltTy.bits .f32 = 32 ∨ (Rect.block (s := S2x60000x16x3) S1x240x16x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x240x16x16.size a ≤ S2x60000x16x16.size a
  hwx0_2 : ∀ i : grid0.Coords, EltTy.bits .f32 = 32 ∨ (Rect.block (s := S2x60000x16x16) S1x240x16x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .f32 = 32 ∨ (Rect.block (s := S1024x128) S1024x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S48x128.size a ≤ S48x128.size a
  hwx0_4 : ∀ i : grid0.Coords, EltTy.bits .f32 = 32 ∨ (Rect.block (s := S48x128) S48x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x240x128.size a ≤ S2x60000x128.size a
  hwx0_6 : ∀ i : grid0.Coords, EltTy.bits .f32 = 32 ∨ (Rect.block (s := S2x60000x128) S1x240x128.size (cc0_transform_6 i) (hinb0_6 i)).WholeWords (EltTy.packing .f32)

variable [Facts₀]

def gather_S2x60000x64_S2x60000x16x1_S2x60000x16x64_3_1_0_0_1_3_1164 : GatherDims S2x60000x64 S2x60000x16x1 S2x60000x16x64 where
  offsetDims := [3]
  collapsedSliceDims := [1]
  operandBatchingDims := [0]
  startIndicesBatchingDims := [0]
  startIndexMap := [1]
  indexVectorDim := 3
  sliceSizes := ![1, 1, 64]
  wf := gather_S2x60000x64_S2x60000x16x1_S2x60000x16x64_3_1_0_0_1_3_1164_wf
def dot_S240x16x64_S240x16x16_S240x64x16_1_1_2_2_0_0 : DotDims S240x16x64 S240x16x16 S240x64x16 where
  lhsContracting := [1]
  rhsContracting := [1]
  lhsNonContracting := [2]
  rhsNonContracting := [2]
  lhsBatch := [0]
  rhsBatch := [0]
  wf := dot_S240x16x64_S240x16x16_S240x64x16_1_1_2_2_0_0_wf
def dot_S240x16x3_S240x16x16_S240x3x16_1_1_2_2_0_0 : DotDims S240x16x3 S240x16x16 S240x3x16 where
  lhsContracting := [1]
  rhsContracting := [1]
  lhsNonContracting := [2]
  rhsNonContracting := [2]
  lhsBatch := [0]
  rhsBatch := [0]
  wf := dot_S240x16x3_S240x16x16_S240x3x16_1_1_2_2_0_0_wf
def dot_S240x1024_S1024x128_S240x128_1_0_0_1_n_n : DotDims S240x1024 S1024x128 S240x128 where
  lhsContracting := [1]
  rhsContracting := [0]
  lhsNonContracting := [0]
  rhsNonContracting := [1]
  lhsBatch := []
  rhsBatch := []
  wf := dot_S240x1024_S1024x128_S240x128_1_0_0_1_n_n_wf
def dot_S240x48_S48x128_S240x128_1_0_0_1_n_n : DotDims S240x48 S48x128 S240x128 where
  lhsContracting := [1]
  rhsContracting := [0]
  lhsNonContracting := [0]
  rhsNonContracting := [1]
  lhsBatch := []
  rhsBatch := []
  wf := dot_S240x48_S48x128_S240x128_1_0_0_1_n_n_wf

abbrev win0_0 : Pipeline.Window sig grid0 :=
  Pipeline.Window.ofSpec (Memref.whole main_v6) S1x240x16x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x240x16x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x240x16x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S48x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x240x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x60000x64 : Shape := ⟨3, ![2, 60000, 64]⟩
abbrev S2x60000x16 : Shape := ⟨3, ![2, 60000, 16]⟩
abbrev S2x60000x16x16 : Shape := ⟨4, ![2, 60000, 16, 16]⟩
abbrev S2x60000x16x3 : Shape := ⟨4, ![2, 60000, 16, 3]⟩
abbrev S128x1072 : Shape := ⟨2, ![128, 1072]⟩
abbrev S128 : Shape := ⟨1, ![128]⟩
abbrev S_ : Shape := ⟨0, ![]⟩
abbrev S2x60000x16x1 : Shape := ⟨4, ![2, 60000, 16, 1]⟩
abbrev S2x60000x16x64 : Shape := ⟨4, ![2, 60000, 16, 64]⟩
abbrev S2x60000x16x67 : Shape := ⟨4, ![2, 60000, 16, 67]⟩
abbrev S2x60000x67x16 : Shape := ⟨4, ![2, 60000, 67, 16]⟩
abbrev S2x60000x1072 : Shape := ⟨3, ![2, 60000, 1072]⟩
abbrev S2x60000x128 : Shape := ⟨3, ![2, 60000, 128]⟩
abbrev S1x1x128 : Shape := ⟨3, ![1, 1, 128]⟩

abbrev nBuf : Space → Nat
  | .hbm => 22
  | .vmem => 0
  | .smem => 0
  | _ => 0

abbrev bufTy : (tb : Table) → Fin (tcTables nBuf tb) → BufTy
  | .hbm, ⟨0, _⟩ => ⟨S2x60000x64, .f32⟩
  | .hbm, ⟨1, _⟩ => ⟨S2x60000x16, .i32⟩
  | .hbm, ⟨2, _⟩ => ⟨S2x60000x16x16, .f32⟩
  | .hbm, ⟨3, _⟩ => ⟨S2x60000x16x3, .f32⟩
  | .hbm, ⟨4, _⟩ => ⟨S128x1072, .f32⟩
  | .hbm, ⟨5, _⟩ => ⟨S128, .f32⟩
  | .hbm, ⟨6, _⟩ => ⟨S_, .i32⟩
  | .hbm, ⟨7, _⟩ => ⟨S2x60000x16, .i32⟩
  | .hbm, ⟨8, _⟩ => ⟨S2x60000x16, .i1⟩
  | .hbm, ⟨9, _⟩ => ⟨S_, .i32⟩
  | .hbm, ⟨10, _⟩ => ⟨S2x60000x16, .i32⟩
  | .hbm, ⟨11, _⟩ => ⟨S2x60000x16, .i32⟩
  | .hbm, ⟨12, _⟩ => ⟨S2x60000x16, .i32⟩
  | .hbm, ⟨13, _⟩ => ⟨S2x60000x16x1, .i32⟩
  | .hbm, ⟨14, _⟩ => ⟨S2x60000x16x64, .f32⟩
  | .hbm, ⟨15, _⟩ => ⟨S2x60000x16x67, .f32⟩
  | .hbm, ⟨16, _⟩ => ⟨S2x60000x67x16, .f32⟩
  | .hbm, ⟨17, _⟩ => ⟨S2x60000x1072, .f32⟩
  | .hbm, ⟨18, _⟩ => ⟨S2x60000x128, .f32⟩
  | .hbm, ⟨19, _⟩ => ⟨S1x1x128, .f32⟩
  | .hbm, ⟨20, _⟩ => ⟨S2x60000x128, .f32⟩
  | .hbm, ⟨21, _⟩ => ⟨S2x60000x128, .f32⟩
  | _, _ => ⟨S2x60000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S_S2x60000x16 : S_.BroadcastsInDim S2x60000x16 (![] : Fin 0 → Fin S2x60000x16.rank)
  bcast_S2x60000x16_S2x60000x16x1_0_1_2 : S2x60000x16.BroadcastsInDim S2x60000x16x1 (![0, 1, 2] : Fin 3 → Fin S2x60000x16x1.rank)
  concatenates_S2x60000x16x64_S2x60000x16x3_S2x60000x16x67_d3 : Shape.Concatenates [S2x60000x16x64, S2x60000x16x3] S2x60000x16x67 3
  shapeCasts_S2x60000x67x16_S2x60000x1072 : S2x60000x67x16.ShapeCasts S2x60000x1072
  bcast_S128_S1x1x128_2 : S128.BroadcastsInDim S1x1x128 (![2] : Fin 1 → Fin S1x1x128.rank)
  bcast_S1x1x128_S2x60000x128_0_1_2 : S1x1x128.BroadcastsInDim S2x60000x128 (![0, 1, 2] : Fin 3 → Fin S2x60000x128.rank)
  gather_S2x60000x64_S2x60000x16x1_S2x60000x16x64_3_1_0_0_1_3_1164_wf : GatherDims.WF S2x60000x64 S2x60000x16x1 S2x60000x16x64 [3] [1] [0] [1] [0] 3 ![1, 1, 64]
  dot_S2x60000x16x67_S2x60000x16x16_S2x60000x67x16_2_2_3_3_01_01_wf : DotDims.WF S2x60000x16x67 S2x60000x16x16 S2x60000x67x16 [2] [2] [3] [3] [0, 1] [0, 1]
  dot_S2x60000x1072_S128x1072_S2x60000x128_2_1_01_0_n_n_wf : DotDims.WF S2x60000x1072 S128x1072 S2x60000x128 [2] [1] [0, 1] [0] [] []

variable [Facts₀]

def gather_S2x60000x64_S2x60000x16x1_S2x60000x16x64_3_1_0_0_1_3_1164 : GatherDims S2x60000x64 S2x60000x16x1 S2x60000x16x64 where
  offsetDims := [3]
  collapsedSliceDims := [1]
  operandBatchingDims := [0]
  startIndicesBatchingDims := [0]
  startIndexMap := [1]
  indexVectorDim := 3
  sliceSizes := ![1, 1, 64]
  wf := gather_S2x60000x64_S2x60000x16x1_S2x60000x16x64_3_1_0_0_1_3_1164_wf
def dot_S2x60000x16x67_S2x60000x16x16_S2x60000x67x16_2_2_3_3_01_01 : DotDims S2x60000x16x67 S2x60000x16x16 S2x60000x67x16 where
  lhsContracting := [2]
  rhsContracting := [2]
  lhsNonContracting := [3]
  rhsNonContracting := [3]
  lhsBatch := [0, 1]
  rhsBatch := [0, 1]
  wf := dot_S2x60000x16x67_S2x60000x16x16_S2x60000x67x16_2_2_3_3_01_01_wf
def dot_S2x60000x1072_S128x1072_S2x60000x128_2_1_01_0_n_n : DotDims S2x60000x1072 S128x1072 S2x60000x128 where
  lhsContracting := [2]
  rhsContracting := [1]
  lhsNonContracting := [0, 1]
  rhsNonContracting := [0]
  lhsBatch := []
  rhsBatch := []
  wf := dot_S2x60000x1072_S128x1072_S2x60000x128_2_1_01_0_n_n_wf

class Facts : Prop extends Facts₀ where

variable [Facts]
-- ==== Proof.Spec.lean ====
/-
  The function both programs compute, and the one law that joins their two arrangements.

  For one point of the cloud, with `K = 16` neighbours, let `g k c` (`c < 64`) be the gathered features of neighbour
  `k`, `a k c` (`c < 3`) its additional features and `w k m` (`m < 16`) its weights. The aggregated feature is the
  `67 × 16` matrix `P (c, m) = ∑ k, x k c · w k m` where `x` lists the 64 gathered channels and then the 3 additional
  ones; flattened row by row, column `f` of the flat vector is channel `f / 16` and weight column `f % 16`. The point's
  output is `∑ f, P f · W f + β` over the 1072 columns.

  One side takes that sum over all 1072 columns of the joined list at once (`outAtCat`); the other takes the first
  `64 · 16 = 1024` columns (the gathered channels) and the last `3 · 16 = 48` (the additional ones) as two separate sums and
  adds them (`outAt`). The two agree (`outAtCat_eq`): a sum over `Fin (1024 + 48)` is the sum over the first 1024
  indices plus the sum over the last 48, and column `1024 + f` is channel `64 + f / 16` with weight column `f % 16`. Only
  commutativity and associativity of addition are used, so the law holds on all extended reals, the infinities included.
  `G` is the whole output array as a function of the whole input arrays.
-/
import Idealize.ShloMosaic.PureOps.Ideal
import Idealize.ShloMosaic.Lib.ValueIdx

noncomputable section

namespace Cert.PConvLinear

open Idealize.ShloMosaic Idealize.ShloMosaic.ValueIdx

/-- The channel of flat column `f` among the 64 gathered channels. -/
abbrev ch64 (f : Fin 1024) : Fin 64 := ⟨f.val / 16, by have := f.isLt; omega⟩
/-- The channel of flat column `f` among the 3 additional channels. -/
abbrev ch3 (f : Fin 48) : Fin 3 := ⟨f.val / 16, by have := f.isLt; omega⟩
/-- The channel of flat column `f` among the 67 joined channels. -/
abbrev ch67 (f : Fin 1072) : Fin 67 := ⟨f.val / 16, by have := f.isLt; omega⟩
/-- The weight column of flat column `f`. -/
abbrev mid {n : Nat} (f : Fin n) : Fin 16 := ⟨f.val % 16, Nat.mod_lt _ (by decide)⟩
/-- Flat column `f` of the gathered part, among all 1072 columns. -/
abbrev colG (f : Fin 1024) : Fin 1072 := ⟨f.val, by have := f.isLt; omega⟩
/-- Flat column `f` of the additional part, among all 1072 columns. -/
abbrev colA (f : Fin 48) : Fin 1072 := ⟨1024 + f.val, by have := f.isLt; omega⟩

/-- One point's output with the gathered and the additional columns summed separately. -/
def outAt (g : Fin 16 → Fin 64 → EReal) (a : Fin 16 → Fin 3 → EReal) (w : Fin 16 → Fin 16 → EReal)
    (Wg : Fin 1024 → EReal) (Wa : Fin 48 → EReal) (β : EReal) : EReal :=
  (∑ f : Fin 1024, (∑ k : Fin 16, g k (ch64 f) * w k (mid f)) * Wg f
    + ∑ f : Fin 48, (∑ k : Fin 16, a k (ch3 f) * w k (mid f)) * Wa f) + β

/-- One point's output with all 1072 columns of the joined channels summed at once. -/
def outAtCat (x : Fin 16 → Fin 67 → EReal) (w : Fin 16 → Fin 16 → EReal) (W : Fin 1072 → EReal) (β : EReal) : EReal :=
  (∑ f : Fin 1072, (∑ k : Fin 16, x k (ch67 f) * w k (mid f)) * W f) + β

/-- A sum over the 1072 columns is the sum over the first 1024 plus the sum over the last 48. -/
theorem sum_split (h : Fin 1072 → EReal) :
    ∑ f : Fin 1072, h f = ∑ f : Fin 1024, h (colG f) + ∑ f : Fin 48, h (colA f) :=
  Fin.sum_univ_add (a := 1024) (b := 48) h

/-- The two arrangements agree when the joined channels are the gathered ones followed by the additional ones. -/
theorem outAtCat_eq (x : Fin 16 → Fin 67 → EReal) (g : Fin 16 → Fin 64 → EReal) (a : Fin 16 → Fin 3 → EReal)
    (w : Fin 16 → Fin 16 → EReal) (W : Fin 1072 → EReal) (β : EReal)
    (hg : ∀ (k : Fin 16) (c : Fin 64), x k ⟨c.val, by have := c.isLt; omega⟩ = g k c)
    (ha : ∀ (k : Fin 16) (c : Fin 3), x k ⟨64 + c.val, by have := c.isLt; omega⟩ = a k c) :
    outAtCat x w W β = outAt g a w (fun f => W (colG f)) (fun f => W (colA f)) β := by
  unfold outAtCat outAt
  rw [sum_split]
  refine congrArg (· + β) (congrArg₂ (· + ·) (Finset.sum_congr rfl fun f _ => ?_) (Finset.sum_congr rfl fun f _ => ?_))
  · refine congrArg (· * W (colG f)) (Finset.sum_congr rfl fun k _ => ?_)
    exact congrArg (· * w k (mid f)) (hg k (ch64 f))
  · refine congrArg (· * W (colA f)) (Finset.sum_congr rfl fun k _ => ?_)
    have hc : ch67 (colA f) = ⟨64 + (ch3 f).val, by have := f.isLt; omega⟩ :=
      Fin.ext (by show (1024 + f.val) / 16 = 64 + f.val / 16; omega)
    have hm : mid (colA f) = mid f := Fin.ext (by show (1024 + f.val) % 16 = f.val % 16; omega)
    rw [hc, hm, ha k (ch3 f)]

/-- The output at batch `b`, point `n`, output feature `o`. -/
def Gat (g : (⟨4, ![2, 60000, 16, 64]⟩ : Shape).Idx → EReal) (a : (⟨4, ![2, 60000, 16, 3]⟩ : Shape).Idx → EReal)
    (w : (⟨4, ![2, 60000, 16, 16]⟩ : Shape).Idx → EReal) (W : (⟨2, ![128, 1072]⟩ : Shape).Idx → EReal)
    (bias : (⟨1, ![128]⟩ : Shape).Idx → EReal) (b : Fin 2) (n : Fin 60000) (o : Fin 128) : EReal :=
  outAt (fun k c => g (ix4 b n k c)) (fun k c => a (ix4 b n k c)) (fun k m => w (ix4 b n k m))
    (fun f => W (ix2 o (colG f))) (fun f => W (ix2 o (colA f))) (bias (ix1 o))

/-- The whole output array as a function of the gathered features, the additional features, the weights, the
    projection matrix and the bias. -/
def G (g : (⟨4, ![2, 60000, 16, 64]⟩ : Shape).Idx → EReal) (a : (⟨4, ![2, 60000, 16, 3]⟩ : Shape).Idx → EReal)
    (w : (⟨4, ![2, 60000, 16, 16]⟩ : Shape).Idx → EReal) (W : (⟨2, ![128, 1072]⟩ : Shape).Idx → EReal)
    (bias : (⟨1, ![128]⟩ : Shape).Idx → EReal) : (⟨3, ![2, 60000, 128]⟩ : Shape).Idx → EReal :=
  fun j => Gat g a w W bias (j 0) (j 1) (j 2)

theorem G_apply (g : (⟨4, ![2, 60000, 16, 64]⟩ : Shape).Idx → EReal) (a : (⟨4, ![2, 60000, 16, 3]⟩ : Shape).Idx → EReal)
    (w : (⟨4, ![2, 60000, 16, 16]⟩ : Shape).Idx → EReal) (W : (⟨2, ![128, 1072]⟩ : Shape).Idx → EReal)
    (bias : (⟨1, ![128]⟩ : Shape).Idx → EReal) (b : Fin 2) (n : Fin 60000) (o : Fin 128) :
    G g a w W bias (ix3 b n o) = Gat g a w W bias b n o := rfl

end Cert.PConvLinear

end
-- ==== Proof.LibDotSum.lean ====
/-
  A product contracted over one axis, a bias repeated over rows, and the word for the number one, at an index.

  Three facts about arrays of extended reals read at one entry, none of which mentions a particular size. A product
  of an `M × K` by a `K × N` array contracted over the shared axis is, at `(p, q)`, the sum over `k : Fin K` of
  `A (p, k) · B (k, q)` (`sum_dot`): the contraction's index set has a single axis, so it is in bijection with that
  axis's coordinate, and the operand indices at output `(p, q)` and contraction position `k` are `(p, k)` and `(k, q)`.
  A vector of `m` column values laid out as the one row `[1, m]` and repeated over `n` rows reads, at `(p, q)`, its
  entry `q` (`bias_apply`): a repeated axis of extent one reads coordinate `0`, every other axis its own coordinate.
  The 32-bit word `0x3F800000` denotes the number one (`one_f32`). `add3` is the congruence of a sum of three terms.
-/
import Idealize.ShloMosaic.PureOps.Ideal.Laws
import Idealize.ShloMosaic.Lib.ValueIdx
import Idealize.ShloMosaic.Lib.Pipeline.Value

noncomputable section

namespace Cert.LibDotSum

open Idealize.ShloMosaic Idealize.ShloMosaic.ValueIdx

/-! ## A contraction over one axis as a sum over that axis's coordinate -/

/-- For a product of an `M × K` by a `K × N` array contracted over the shared axis, the sum over the contraction
    index set is the sum over `k : Fin K` of `A (p, k) · B (k, q)`: the contraction index is its one coordinate, and
    the operand indices at output `(p, q)` are `(p, k)` and `(k, q)` (the four hypotheses, which compute on a
    given record of dimension numbers). -/
theorem sum_dot {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : (⟨2, ![M, K]⟩ : Shape).Idx → EReal) (B : (⟨2, ![K, N]⟩ : Shape).Idx → EReal) (p : Fin M) (q : Fin N) :
    ∑ k : D.contr.Idx, A (D.lhsIdx (ix2 p q) k) * B (D.rhsIdx (ix2 p q) k) = ∑ k : Fin K, A (ix2 p k) * B (ix2 k q) := by
  refine Fintype.sum_equiv (contrEquiv1 D K hr hs) _ _ fun k => ?_
  have ha : D.lhsIdx (ix2 p q) k = ix2 p (contrEquiv1 D K hr hs k) := by
    funext a
    match a with
    | ⟨0, _⟩ => exact Fin.ext (hl0 _ k)
    | ⟨1, _⟩ => exact Fin.ext (hl1 _ k)
  have hb : D.rhsIdx (ix2 p q) k = ix2 (contrEquiv1 D K hr hs k) q := by
    funext a
    match a with
    | ⟨0, _⟩ => exact Fin.ext (hr0 _ k)
    | ⟨1, _⟩ => exact Fin.ext (hr1 _ k)
  rw [ha, hb]

/-- Three summands equal term by term. -/
theorem add3 {a b c a' b' c' : EReal} (h1 : a = a') (h2 : b = b') (h3 : c = c') : a + b + c = a' + b' + c' := by
  rw [h1, h2, h3]

/-! ## The word for the number one -/

/-- The word `0x3F800000` is the number one. -/
theorem one_f32 : Ideal.ofBits .f32 0x3F800000#32 = 1 := IdealRules.sign_bit.ideal_onePat .f32

/-! ## A bias repeated over rows, at an index -/

/-- A bias vector `[m]`, laid out as the one row `[1, m]` and repeated over `n` rows, reads at `(p, q)` its entry `q`. -/
theorem bias_apply {n m : Nat} {α : Type} (b : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (p : Fin n) (q : Fin m) :
    broadcastInDim ⟨2, ![n, m]⟩ ![0, 1] h2 (broadcastInDim ⟨2, ![1, m]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if m = 1 then 0 else q.val
      split
      · have := q.isLt; omega
      · rfl
  · match a with
    | ⟨0, _⟩ =>
      show q.val = if m = 1 then 0 else q.val
      split
      · have := q.isLt; omega
      · rfl

end Cert.LibDotSum

end
-- ==== Proof.LibBatchDotMid.lean ====
/-
  A batched product contracted over the MIDDLE axis of both operands, 'nkc,nkm->ncm', read at an entry.

  For arrays `A` of extents `[N, K, C]` and `B` of extents `[N, K, M]`, the product that keeps the leading axis as a
  batch axis and contracts the middle axis of both is, at `(n, c, m)`, the sum over `k : Fin K` of
  `A (n, k, c) · B (n, k, m)` (`sum_batch_mid`). The contraction's index set has a single axis, so it is in bijection
  with that axis's coordinate; the operand indices at output `(n, c, m)` and contraction position `k` are `(n, k, c)`
  and `(n, k, m)` — the six coordinate hypotheses, which compute on a given record of dimension numbers. Read through
  the vector unit's matrix product into an accumulator of zeros (`matmul_batch_mid`) the entry is exactly that sum.
  Nothing here mentions a particular size.
-/
import Idealize.ShloMosaic.PureOps.Ideal.Laws
import Idealize.ShloMosaic.Lib.ValueIdx

noncomputable section

namespace Cert.LibBatchDotMid

open Idealize.ShloMosaic Idealize.ShloMosaic.ValueIdx

/-- The sum over the contraction index set of a batched product contracted over the middle axes is the sum over
    `k : Fin K` of `A (n, k, c) · B (n, k, m)`. -/
theorem sum_batch_mid {N K C M : Nat} (D : DotDims ⟨3, ![N, K, C]⟩ ⟨3, ![N, K, M]⟩ ⟨3, ![N, C, M]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hl2 : ∀ j k, (D.lhsIdx j k 2).val = (j 1).val)
    (hr0 : ∀ j k, (D.rhsIdx j k 0).val = (j 0).val) (hr1 : ∀ j k, (D.rhsIdx j k 1).val = (k ⟨0, by omega⟩).val)
    (hr2 : ∀ j k, (D.rhsIdx j k 2).val = (j 2).val)
    (A : (⟨3, ![N, K, C]⟩ : Shape).Idx → EReal) (B : (⟨3, ![N, K, M]⟩ : Shape).Idx → EReal)
    (n : Fin N) (c : Fin C) (m : Fin M) :
    ∑ k : D.contr.Idx, A (D.lhsIdx (ix3 n c m) k) * B (D.rhsIdx (ix3 n c m) k)
      = ∑ k : Fin K, A (ix3 n k c) * B (ix3 n k m) := by
  refine Fintype.sum_equiv (contrEquiv1 D K hr hs) _ _ fun k => ?_
  have ha : D.lhsIdx (ix3 n c m) k = ix3 n (contrEquiv1 D K hr hs k) c := by
    funext a
    match a with
    | ⟨0, _⟩ => exact Fin.ext (hl0 _ k)
    | ⟨1, _⟩ => exact Fin.ext (hl1 _ k)
    | ⟨2, _⟩ => exact Fin.ext (hl2 _ k)
  have hb : D.rhsIdx (ix3 n c m) k = ix3 n (contrEquiv1 D K hr hs k) m := by
    funext a
    match a with
    | ⟨0, _⟩ => exact Fin.ext (hr0 _ k)
    | ⟨1, _⟩ => exact Fin.ext (hr1 _ k)
    | ⟨2, _⟩ => exact Fin.ext (hr2 _ k)
  rw [ha, hb]

/-- The matrix product of the vector unit into an accumulator of zeros, for these dimension numbers, at `(n, c, m)`:
    the sum over `k` of `l (n, k, c) · r (n, k, m)`. -/
theorem matmul_batch_mid {N K C M : Nat} {φ₁ φ₂ : FTy} (D : DotDims ⟨3, ![N, K, C]⟩ ⟨3, ![N, K, M]⟩ ⟨3, ![N, C, M]⟩)
    (prec : Option ContractPrecision)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hl2 : ∀ j k, (D.lhsIdx j k 2).val = (j 1).val)
    (hr0 : ∀ j k, (D.rhsIdx j k 0).val = (j 0).val) (hr1 : ∀ j k, (D.rhsIdx j k 1).val = (k ⟨0, by omega⟩).val)
    (hr2 : ∀ j k, (D.rhsIdx j k 2).val = (j 2).val)
    (l : FVec Ideal ⟨3, ![N, K, C]⟩ φ₁) (r : FVec Ideal ⟨3, ![N, K, M]⟩ φ₂) (n : Fin N) (c : Fin C) (m : Fin M) :
    FloatOps.matmul D prec l r (constant (F := Ideal) ⟨3, ![N, C, M]⟩ .f32 0x00000000#32) (ix3 n c m)
      = ∑ k : Fin K, l (ix3 n k c) * r (ix3 n k m) :=
  (Ideal.matmul_constant_zero_apply D prec l r (ix3 n c m)).trans
    (sum_batch_mid D hr hs hl0 hl1 hl2 hr0 hr1 hr2 l r n c m)

end Cert.LibBatchDotMid

end
-- ==== Proof.Payload.lean ====
/-
  What the kernel body stores for one block of 240 points, read at one entry.

  The body sees, for one batch `b` and one tile of 240 points, the blocks `x0` (gathered features, `[1, 240, 16, 64]`),
  `x1` (additional features, `[1, 240, 16, 3]`), `x2` (weights, `[1, 240, 16, 16]`), the two pieces of the transposed
  projection matrix `x3` (`[1024, 128]`) and `x4` (`[48, 128]`) and the bias row `x5` (`[1, 128]`). It forms, per point
  `p`, the aggregated features `∑ k, x0 (p, k, c) · x2 (p, k, m)` (`aggG`, a batched product contracted over the
  neighbours) and likewise for `x1` (`aggA`), flattens each `(c, m)` to the column `c · 16 + m`, multiplies by the
  matching piece of the projection matrix (`projG`, `projA`), adds the two products and the bias row. At the exact
  instance the changes of float format are the identity and each product into a zero accumulator is a plain sum, so the
  entry `(p, o)` of what is stored is `outAt` of the blocks (`pay_apply`).
-/
import proofs.«145308_j4097398800823_2_alg».proof.Proof.Gen.KernelIdeal.Skeleton
import proofs.«145308_j4097398800823_2_alg».proof.Proof.Spec
import proofs.«145308_j4097398800823_2_alg».proof.Proof.LibDotSum
import proofs.«145308_j4097398800823_2_alg».proof.Proof.LibBatchDotMid
import Idealize.ShloMosaic.Lib.Pipeline.Value
import Idealize.ShloMosaic.Lib.ValueIdx
import Idealize.ShloMosaic.PureOps.Ideal.Laws

noncomputable section

namespace Cert.PConvLinear.Payload

open Cert.KernelIdeal Cert.KernelIdeal.Gen Idealize.ShloMosaic Idealize.ShloMosaic.ValueIdx

/-! ## The four products' dimension numbers: which operand entry meets which -/

abbrev Dg := dot_S240x16x64_S240x16x16_S240x64x16_1_1_2_2_0_0
abbrev Da := dot_S240x16x3_S240x16x16_S240x3x16_1_1_2_2_0_0
abbrev Eg := dot_S240x1024_S1024x128_S240x128_1_0_0_1_n_n
abbrev Ea := dot_S240x48_S48x128_S240x128_1_0_0_1_n_n

theorem gl0 (j : S240x64x16.Idx) (q : Dg.contr.Idx) : (Dg.lhsIdx j q 0).val = (j 0).val := by
  unfold DotDims.lhsIdx
  rw [dif_pos (show (0 : Fin S240x16x64.rank) ∈ Dg.lhsBatch by decide)]
  rfl
theorem gl1 (j : S240x64x16.Idx) (q : Dg.contr.Idx) : (Dg.lhsIdx j q 1).val = (q ⟨0, by decide⟩).val :=
  Dg.lhsIdx_val_of_single rfl j q
theorem gl2 (j : S240x64x16.Idx) (q : Dg.contr.Idx) : (Dg.lhsIdx j q 2).val = (j 1).val := by
  unfold DotDims.lhsIdx
  rw [dif_neg (show ¬(2 : Fin S240x16x64.rank) ∈ Dg.lhsBatch by decide),
    dif_pos (show (2 : Fin S240x16x64.rank) ∈ Dg.lhsNonContracting by decide)]
  rfl
theorem gr0 (j : S240x64x16.Idx) (q : Dg.contr.Idx) : (Dg.rhsIdx j q 0).val = (j 0).val := by
  unfold DotDims.rhsIdx
  rw [dif_pos (show (0 : Fin S240x16x16.rank) ∈ Dg.rhsBatch by decide)]
  rfl
theorem gr1 (j : S240x64x16.Idx) (q : Dg.contr.Idx) : (Dg.rhsIdx j q 1).val = (q ⟨0, by decide⟩).val :=
  Dg.rhsIdx_val_of_single rfl j q
theorem gr2 (j : S240x64x16.Idx) (q : Dg.contr.Idx) : (Dg.rhsIdx j q 2).val = (j 2).val := by
  unfold DotDims.rhsIdx
  rw [dif_neg (show ¬(2 : Fin S240x16x16.rank) ∈ Dg.rhsBatch by decide),
    dif_pos (show (2 : Fin S240x16x16.rank) ∈ Dg.rhsNonContracting by decide)]
  rfl

theorem al0 (j : S240x3x16.Idx) (q : Da.contr.Idx) : (Da.lhsIdx j q 0).val = (j 0).val := by
  unfold DotDims.lhsIdx
  rw [dif_pos (show (0 : Fin S240x16x3.rank) ∈ Da.lhsBatch by decide)]
  rfl
theorem al1 (j : S240x3x16.Idx) (q : Da.contr.Idx) : (Da.lhsIdx j q 1).val = (q ⟨0, by decide⟩).val :=
  Da.lhsIdx_val_of_single rfl j q
theorem al2 (j : S240x3x16.Idx) (q : Da.contr.Idx) : (Da.lhsIdx j q 2).val = (j 1).val := by
  unfold DotDims.lhsIdx
  rw [dif_neg (show ¬(2 : Fin S240x16x3.rank) ∈ Da.lhsBatch by decide),
    dif_pos (show (2 : Fin S240x16x3.rank) ∈ Da.lhsNonContracting by decide)]
  rfl
theorem ar0 (j : S240x3x16.Idx) (q : Da.contr.Idx) : (Da.rhsIdx j q 0).val = (j 0).val := by
  unfold DotDims.rhsIdx
  rw [dif_pos (show (0 : Fin S240x16x16.rank) ∈ Da.rhsBatch by decide)]
  rfl
theorem ar1 (j : S240x3x16.Idx) (q : Da.contr.Idx) : (Da.rhsIdx j q 1).val = (q ⟨0, by decide⟩).val :=
  Da.rhsIdx_val_of_single rfl j q
theorem ar2 (j : S240x3x16.Idx) (q : Da.contr.Idx) : (Da.rhsIdx j q 2).val = (j 2).val := by
  unfold DotDims.rhsIdx
  rw [dif_neg (show ¬(2 : Fin S240x16x16.rank) ∈ Da.rhsBatch by decide),
    dif_pos (show (2 : Fin S240x16x16.rank) ∈ Da.rhsNonContracting by decide)]
  rfl

theorem egl0 (j : S240x128.Idx) (q : Eg.contr.Idx) : (Eg.lhsIdx j q 0).val = (j 0).val := by
  unfold DotDims.lhsIdx
  rw [dif_neg (show ¬(0 : Fin S240x1024.rank) ∈ Eg.lhsBatch by decide),
    dif_pos (show (0 : Fin S240x1024.rank) ∈ Eg.lhsNonContracting by decide)]
  rfl
theorem egl1 (j : S240x128.Idx) (q : Eg.contr.Idx) : (Eg.lhsIdx j q 1).val = (q ⟨0, by decide⟩).val :=
  Eg.lhsIdx_val_of_single rfl j q
theorem egr0 (j : S240x128.Idx) (q : Eg.contr.Idx) : (Eg.rhsIdx j q 0).val = (q ⟨0, by decide⟩).val :=
  Eg.rhsIdx_val_of_single rfl j q
theorem egr1 (j : S240x128.Idx) (q : Eg.contr.Idx) : (Eg.rhsIdx j q 1).val = (j 1).val := by
  unfold DotDims.rhsIdx
  rw [dif_neg (show ¬(1 : Fin S1024x128.rank) ∈ Eg.rhsBatch by decide),
    dif_pos (show (1 : Fin S1024x128.rank) ∈ Eg.rhsNonContracting by decide)]
  rfl

theorem eal0 (j : S240x128.Idx) (q : Ea.contr.Idx) : (Ea.lhsIdx j q 0).val = (j 0).val := by
  unfold DotDims.lhsIdx
  rw [dif_neg (show ¬(0 : Fin S240x48.rank) ∈ Ea.lhsBatch by decide),
    dif_pos (show (0 : Fin S240x48.rank) ∈ Ea.lhsNonContracting by decide)]
  rfl
theorem eal1 (j : S240x128.Idx) (q : Ea.contr.Idx) : (Ea.lhsIdx j q 1).val = (q ⟨0, by decide⟩).val :=
  Ea.lhsIdx_val_of_single rfl j q
theorem ear0 (j : S240x128.Idx) (q : Ea.contr.Idx) : (Ea.rhsIdx j q 0).val = (q ⟨0, by decide⟩).val :=
  Ea.rhsIdx_val_of_single rfl j q
theorem ear1 (j : S240x128.Idx) (q : Ea.contr.Idx) : (Ea.rhsIdx j q 1).val = (j 1).val := by
  unfold DotDims.rhsIdx
  rw [dif_neg (show ¬(1 : Fin S48x128.rank) ∈ Ea.rhsBatch by decide),
    dif_pos (show (1 : Fin S48x128.rank) ∈ Ea.rhsNonContracting by decide)]
  rfl

/-! ## The body's stages, named -/

/-- The gathered features aggregated over the neighbours: `[240, 64, 16]`. -/
def aggG (x0 : Vec Ideal S1x240x16x64 .f32) (x2 : Vec Ideal S1x240x16x16 .f32) : FVec Ideal S240x64x16 .f32 :=
  matmul Dg none
    (truncf .bf16 (shapeCast S240x16x64 x0 shapeCasts_S1x240x16x64_S240x16x64 : FVec Ideal S240x16x64 .f32) bitsLt_bf16_f32)
    (truncf .bf16 (shapeCast S240x16x16 x2 shapeCasts_S1x240x16x16_S240x16x16 : FVec Ideal S240x16x16 .f32) bitsLt_bf16_f32)
    (constant (F := Ideal) S240x64x16 .f32 0x00000000#32)

/-- The additional features aggregated over the neighbours: `[240, 3, 16]`. -/
def aggA (x1 : Vec Ideal S1x240x16x3 .f32) (x2 : Vec Ideal S1x240x16x16 .f32) : FVec Ideal S240x3x16 .f32 :=
  matmul Da none
    (truncf .bf16 (shapeCast S240x16x3 x1 shapeCasts_S1x240x16x3_S240x16x3 : FVec Ideal S240x16x3 .f32) bitsLt_bf16_f32)
    (truncf .bf16 (shapeCast S240x16x16 x2 shapeCasts_S1x240x16x16_S240x16x16 : FVec Ideal S240x16x16 .f32) bitsLt_bf16_f32)
    (constant (F := Ideal) S240x3x16 .f32 0x00000000#32)

/-- The flattened gathered aggregate times its piece of the projection matrix: `[240, 128]`. -/
def projG (x0 : Vec Ideal S1x240x16x64 .f32) (x2 : Vec Ideal S1x240x16x16 .f32) (x3 : Vec Ideal S1024x128 .f32) :
    FVec Ideal S240x128 .f32 :=
  matmul Eg none
    (truncf .bf16 (shapeCast S240x1024 (aggG x0 x2) shapeCasts_S240x64x16_S240x1024 : FVec Ideal S240x1024 .f32) bitsLt_bf16_f32)
    (truncf .bf16 (shapeCast S1024x128 x3 shapeCasts_S1024x128_S1024x128 : FVec Ideal S1024x128 .f32) bitsLt_bf16_f32)
    (constant (F := Ideal) S240x128 .f32 0x00000000#32)

/-- The flattened additional aggregate times its piece of the projection matrix: `[240, 128]`. -/
def projA (x1 : Vec Ideal S1x240x16x3 .f32) (x2 : Vec Ideal S1x240x16x16 .f32) (x4 : Vec Ideal S48x128 .f32) :
    FVec Ideal S240x128 .f32 :=
  matmul Ea none
    (truncf .bf16 (shapeCast S240x48 (aggA x1 x2) shapeCasts_S240x3x16_S240x48 : FVec Ideal S240x48 .f32) bitsLt_bf16_f32)
    (truncf .bf16 (shapeCast S48x128 x4 shapeCasts_S48x128_S48x128 : FVec Ideal S48x128 .f32) bitsLt_bf16_f32)
    (constant (F := Ideal) S240x128 .f32 0x00000000#32)

/-- The bias row repeated over the 240 points. -/
def biasRows (x5 : Vec Ideal S1x128 .f32) : FVec Ideal S240x128 .f32 :=
  broadcastTo S240x128 (shapeCast S1x128 x5 shapeCasts_S1x128_S1x128 : FVec Ideal S1x128 .f32) broadcasts_S1x128_S240x128

/-- The stored value is the sum of the two projections and the bias rows, laid out as a `[1, 240, 128]` block. -/
theorem pay_eq (x0 : Vec Ideal S1x240x16x64 .f32) (x1 : Vec Ideal S1x240x16x3 .f32) (x2 : Vec Ideal S1x240x16x16 .f32)
    (x3 : Vec Ideal S1024x128 .f32) (x4 : Vec Ideal S48x128 .f32) (x5 : Vec Ideal S1x128 .f32) :
    k0_pay1 (F := Ideal) x0 x1 x2 x3 x4 x5
      = shapeCast S1x240x128 (addf (addf (projG x0 x2 x3) (projA x1 x2 x4)) (biasRows x5)) shapeCasts_S240x128_S1x240x128 :=
  rfl

/-! ## Each stage at an entry -/

theorem aggG_apply (x0 : Vec Ideal S1x240x16x64 .f32) (x2 : Vec Ideal S1x240x16x16 .f32)
    (p : Fin 240) (c : Fin 64) (m : Fin 16) :
    aggG x0 x2 (ix3 p c m) = ∑ k : Fin 16, x0 (ix4 (0 : Fin 1) p k c) * x2 (ix4 (0 : Fin 1) p k m) := by
  unfold aggG
  refine (LibBatchDotMid.matmul_batch_mid Dg none rfl rfl gl0 gl1 gl2 gr0 gr1 gr2 _ _ p c m).trans
    (Finset.sum_congr rfl fun k _ => ?_)
  refine congrArg₂ (· * ·) ?_ ?_
  · exact shapeCast_apply x0 shapeCasts_S1x240x16x64_S240x16x64 (ix3 p k c) (ix4 (0 : Fin 1) p k c) (by
      rw [Shape.rowMajor_val_four, Shape.rowMajor_val_three]
      show ((0 * 240 + p.val) * 16 + k.val) * 64 + c.val = (p.val * 16 + k.val) * 64 + c.val
      omega)
  · exact shapeCast_apply x2 shapeCasts_S1x240x16x16_S240x16x16 (ix3 p k m) (ix4 (0 : Fin 1) p k m) (by
      rw [Shape.rowMajor_val_four, Shape.rowMajor_val_three]
      show ((0 * 240 + p.val) * 16 + k.val) * 16 + m.val = (p.val * 16 + k.val) * 16 + m.val
      omega)

theorem aggA_apply (x1 : Vec Ideal S1x240x16x3 .f32) (x2 : Vec Ideal S1x240x16x16 .f32)
    (p : Fin 240) (c : Fin 3) (m : Fin 16) :
    aggA x1 x2 (ix3 p c m) = ∑ k : Fin 16, x1 (ix4 (0 : Fin 1) p k c) * x2 (ix4 (0 : Fin 1) p k m) := by
  unfold aggA
  refine (LibBatchDotMid.matmul_batch_mid Da none rfl rfl al0 al1 al2 ar0 ar1 ar2 _ _ p c m).trans
    (Finset.sum_congr rfl fun k _ => ?_)
  refine congrArg₂ (· * ·) ?_ ?_
  · exact shapeCast_apply x1 shapeCasts_S1x240x16x3_S240x16x3 (ix3 p k c) (ix4 (0 : Fin 1) p k c) (by
      rw [Shape.rowMajor_val_four, Shape.rowMajor_val_three]
      show ((0 * 240 + p.val) * 16 + k.val) * 3 + c.val = (p.val * 16 + k.val) * 3 + c.val
      omega)
  · exact shapeCast_apply x2 shapeCasts_S1x240x16x16_S240x16x16 (ix3 p k m) (ix4 (0 : Fin 1) p k m) (by
      rw [Shape.rowMajor_val_four, Shape.rowMajor_val_three]
      show ((0 * 240 + p.val) * 16 + k.val) * 16 + m.val = (p.val * 16 + k.val) * 16 + m.val
      omega)

/-- Column `f` of the flattened `[240, 64, 16]` aggregate is channel `f / 16`, weight column `f % 16`. -/
theorem flatG_apply (v : FVec Ideal S240x64x16 .f32) (p : Fin 240) (f : Fin 1024) :
    shapeCast S240x1024 v shapeCasts_S240x64x16_S240x1024 (ix2 p f) = v (ix3 p (ch64 f) (mid f)) :=
  shapeCast_apply v shapeCasts_S240x64x16_S240x1024 (ix2 p f) (ix3 p (ch64 f) (mid f)) (by
    rw [Shape.rowMajor_val_three, Shape.rowMajor_val_two]
    show (p.val * 64 + f.val / 16) * 16 + f.val % 16 = p.val * 1024 + f.val
    omega)

/-- Column `f` of the flattened `[240, 3, 16]` aggregate is channel `f / 16`, weight column `f % 16`. -/
theorem flatA_apply (v : FVec Ideal S240x3x16 .f32) (p : Fin 240) (f : Fin 48) :
    shapeCast S240x48 v shapeCasts_S240x3x16_S240x48 (ix2 p f) = v (ix3 p (ch3 f) (mid f)) :=
  shapeCast_apply v shapeCasts_S240x3x16_S240x48 (ix2 p f) (ix3 p (ch3 f) (mid f)) (by
    rw [Shape.rowMajor_val_three, Shape.rowMajor_val_two]
    show (p.val * 3 + f.val / 16) * 16 + f.val % 16 = p.val * 48 + f.val
    omega)

theorem projG_apply (x0 : Vec Ideal S1x240x16x64 .f32) (x2 : Vec Ideal S1x240x16x16 .f32) (x3 : Vec Ideal S1024x128 .f32)
    (p : Fin 240) (o : Fin 128) :
    projG x0 x2 x3 (ix2 p o)
      = ∑ f : Fin 1024, (∑ k : Fin 16, x0 (ix4 (0 : Fin 1) p k (ch64 f)) * x2 (ix4 (0 : Fin 1) p k (mid f))) * x3 (ix2 f o) := by
  unfold projG
  refine (Ideal.matmul_constant_zero_apply Eg none _ _ (ix2 p o)).trans ?_
  refine (LibDotSum.sum_dot Eg rfl rfl egl0 egl1 egr0 egr1 _ _ p o).trans (Finset.sum_congr rfl fun f _ => ?_)
  refine congrArg₂ (· * ·) ?_ ?_
  · exact (flatG_apply (aggG x0 x2) p f).trans (aggG_apply x0 x2 p (ch64 f) (mid f))
  · exact congrFun (shapeCast_self x3 shapeCasts_S1024x128_S1024x128) (ix2 f o)

theorem projA_apply (x1 : Vec Ideal S1x240x16x3 .f32) (x2 : Vec Ideal S1x240x16x16 .f32) (x4 : Vec Ideal S48x128 .f32)
    (p : Fin 240) (o : Fin 128) :
    projA x1 x2 x4 (ix2 p o)
      = ∑ f : Fin 48, (∑ k : Fin 16, x1 (ix4 (0 : Fin 1) p k (ch3 f)) * x2 (ix4 (0 : Fin 1) p k (mid f))) * x4 (ix2 f o) := by
  unfold projA
  refine (Ideal.matmul_constant_zero_apply Ea none _ _ (ix2 p o)).trans ?_
  refine (LibDotSum.sum_dot Ea rfl rfl eal0 eal1 ear0 ear1 _ _ p o).trans (Finset.sum_congr rfl fun f _ => ?_)
  refine congrArg₂ (· * ·) ?_ ?_
  · exact (flatA_apply (aggA x1 x2) p f).trans (aggA_apply x1 x2 p (ch3 f) (mid f))
  · exact congrFun (shapeCast_self x4 shapeCasts_S48x128_S48x128) (ix2 f o)

theorem biasRows_apply (x5 : Vec Ideal S1x128 .f32) (p : Fin 240) (o : Fin 128) :
    biasRows x5 (ix2 p o) = x5 (ix2 (0 : Fin 1) o) := by
  unfold biasRows
  refine (broadcastTo_apply _ broadcasts_S1x128_S240x128 (ix2 p o) (ix2 (0 : Fin 1) o) fun a => ?_).trans
    (congrFun (shapeCast_self x5 shapeCasts_S1x128_S1x128) _)
  match a with
  | ⟨0, _⟩ => rfl
  | ⟨1, _⟩ => rfl

/-! ## The stored block at an entry -/

/-- Entry `(0, p, o)` of what the body stores is one point's output, of the blocks' rows for point `p`. -/
theorem pay_apply (x0 : Vec Ideal S1x240x16x64 .f32) (x1 : Vec Ideal S1x240x16x3 .f32) (x2 : Vec Ideal S1x240x16x16 .f32)
    (x3 : Vec Ideal S1024x128 .f32) (x4 : Vec Ideal S48x128 .f32) (x5 : Vec Ideal S1x128 .f32) (p : Fin 240) (o : Fin 128) :
    k0_pay1 (F := Ideal) x0 x1 x2 x3 x4 x5 (ix3 (0 : Fin 1) p o)
      = outAt (fun k c => x0 (ix4 (0 : Fin 1) p k c)) (fun k c => x1 (ix4 (0 : Fin 1) p k c))
          (fun k m => x2 (ix4 (0 : Fin 1) p k m)) (fun f => x3 (ix2 f o)) (fun f => x4 (ix2 f o)) (x5 (ix2 (0 : Fin 1) o)) := by
  rw [pay_eq]
  refine (shapeCast_apply _ shapeCasts_S240x128_S1x240x128 (ix3 (0 : Fin 1) p o) (ix2 p o) (by
    rw [Shape.rowMajor_val_two, Shape.rowMajor_val_three]
    show p.val * 128 + o.val = (0 * 240 + p.val) * 128 + o.val
    omega)).trans ?_
  show (projG x0 x2 x3 (ix2 p o) + projA x1 x2 x4 (ix2 p o)) + biasRows x5 (ix2 p o) = _
  rw [projG_apply, projA_apply, biasRows_apply]
  rfl

end Cert.PConvLinear.Payload

end
-- ==== Proof.KernelValue.lean ====
/-
  From the blocks the body stores to the whole output array of the idealized kernel.

  The grid has `2 · 250` points; point `t` is (batch `b`, tile `nt`). Every window moves with the output window: the blocks
  of the gathered features, the additional features and the weights at `t` are rows `nt · 240 … nt · 240 + 239` of
  batch `b`; the two pieces of the transposed projection matrix and the bias row are the same whole arrays at every
  point. The arrays those last three windows read were written before the launch: the transposed left `128 × 1024`
  part of the projection matrix, entry `(f, o)` of which is `W (o, f)`; the transposed right `128 × 48` part, entry
  `(f, o)` of which is `W (o, 1024 + f)`; and the bias as one row. The gathered features are whatever the neighbour
  lookup produced (`gathered`, carried as one function and never opened).

  So what point `t` writes back is block `t` of `G` of the whole arrays (`flushed_eq`), the blocks of the 500 points
  cover the output array (`cover`: row `n` of batch `b` is in the block of point `(b, n / 240)`), and the array ends
  holding `G` (`final`, `run`).
-/
import proofs.«145308_j4097398800823_2_alg».proof.Proof.Gen.KernelIdeal.Value
import proofs.«145308_j4097398800823_2_alg».proof.Proof.Payload
import Idealize.ShloMosaic.Lib.StableHlo.Run

noncomputable section

namespace Cert.PConvLinear.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The arrays written before the launch -/

/-- The neighbour lookup: the features of the points the (wrapped) neighbour indices name. -/
def gathered (x : S2x60000x64.Idx → EReal) (idx : S2x60000x16.Idx → BitVec 32) : S2x60000x16x64.Idx → EReal :=
  Host.gather gather_S2x60000x64_S2x60000x16x1_S2x60000x16x64_3_1_0_0_1_3_1164 x
    (broadcastInDim S2x60000x16x1 ![0, 1, 2] bcast_S2x60000x16_S2x60000x16x1_0_1_2
      (select (cmpi .slt idx (broadcastInDim S2x60000x16 ![] bcast_S_S2x60000x16 (constantI S_ 32 0#32)))
        (addi idx (broadcastInDim S2x60000x16 ![] bcast_S_S2x60000x16 (constantI S_ 32 60000#32))) idx))

theorem V_gathered (c : Dev nD) :
    (V m c main_v6 : S2x60000x16x64.Idx → EReal)
      = gathered (m ((c : Thread nD τ).loc main_arg0)) (m ((c : Thread nD τ).loc main_arg1)) := by
  dsimp only [Gen.V, Gen.hostOps0]
  after_results <;> rfl

/-- Entry `(f, o)` of the transposed left part of the projection matrix is `W (o, f)`. -/
theorem V_wg_apply (c : Dev nD) (f : Fin 1024) (o : Fin 128) :
    (V m c main_v8 : S1024x128.Idx → EReal) (ix2 f o) = m ((c : Thread nD τ).loc main_arg4) (ix2 o (colG f)) := by
  have e : (V m c main_v8 : S1024x128.Idx → EReal)
      = transpose S1024x128 [1, 0] (extractStridedSlice S128x1024 ![0, 0] (m ((c : Thread nD τ).loc main_arg4))
          slices_S128x1072_S128x1024_0_0) transposes_S128x1024_S1024x128_1_0 := by
    dsimp only [Gen.V, Gen.hostOps0]
    after_results <;> rfl
  rw [e]
  refine (transpose_apply [1, 0] _ transposes_S128x1024_S1024x128_1_0 (ix2 f o) (ix2 o f) fun b => ?_).trans
    (extractStridedSlice_apply ![0, 0] _ slices_S128x1072_S128x1024_0_0 (ix2 o f) (ix2 o (colG f)) fun a => ?_)
  · match b with
    | ⟨0, _⟩ => rfl
    | ⟨1, _⟩ => rfl
  · match a with
    | ⟨0, _⟩ => show o.val = 0 + o.val; omega
    | ⟨1, _⟩ => show f.val = 0 + f.val; omega

/-- Entry `(f, o)` of the transposed right part of the projection matrix is `W (o, 1024 + f)`. -/
theorem V_wa_apply (c : Dev nD) (f : Fin 48) (o : Fin 128) :
    (V m c main_v10 : S48x128.Idx → EReal) (ix2 f o) = m ((c : Thread nD τ).loc main_arg4) (ix2 o (colA f)) := by
  have e : (V m c main_v10 : S48x128.Idx → EReal)
      = transpose S48x128 [1, 0] (extractStridedSlice S128x48 ![0, 1024] (m ((c : Thread nD τ).loc main_arg4))
          slices_S128x1072_S128x48_0_1024) transposes_S128x48_S48x128_1_0 := by
    dsimp only [Gen.V, Gen.hostOps0]
    after_results <;> rfl
  rw [e]
  refine (transpose_apply [1, 0] _ transposes_S128x48_S48x128_1_0 (ix2 f o) (ix2 o f) fun b => ?_).trans
    (extractStridedSlice_apply ![0, 1024] _ slices_S128x1072_S128x48_0_1024 (ix2 o f) (ix2 o (colA f)) fun a => ?_)
  · match b with
    | ⟨0, _⟩ => rfl
    | ⟨1, _⟩ => rfl
  · match a with
    | ⟨0, _⟩ => show o.val = 0 + o.val; omega
    | ⟨1, _⟩ => show 1024 + f.val = 1024 + f.val; rfl

/-- Entry `(0, o)` of the bias laid out as one row is the bias's entry `o`. -/
theorem V_bias_apply (c : Dev nD) (o : Fin 128) :
    (V m c main_v11 : S1x128.Idx → EReal) (ix2 (0 : Fin 1) o) = m ((c : Thread nD τ).loc main_arg5) (ix1 o) := by
  have e : (V m c main_v11 : S1x128.Idx → EReal)
      = shapeCast S1x128 (m ((c : Thread nD τ).loc main_arg5)) shapeCasts_S128_S1x128 := by
    dsimp only [Gen.V, Gen.hostOps0]
    after_results <;> rfl
  rw [e]
  exact shapeCast_apply _ shapeCasts_S128_S1x128 (ix2 (0 : Fin 1) o) (ix1 o) (by
    rw [Shape.rowMajor_val_one, Shape.rowMajor_val_two]
    show o.val = 0 * 128 + o.val
    omega)

/-! ## Where each window's block sits at a point -/

/-- Decided over the 500 points: the three per-point windows sit at the output window's batch and tile, at
    offset zero on their other axes; the three shared windows sit at the origin; the output window's batch is below
    2, its tile below 250, its last block index zero. -/
theorem idx_facts : ∀ t : Fin cfg0.N,
    win0_0.index t (0 : Fin 4) = win0_6.index t (0 : Fin 3) ∧ win0_0.index t (1 : Fin 4) = win0_6.index t (1 : Fin 3)
    ∧ win0_0.index t (2 : Fin 4) = 0 ∧ win0_0.index t (3 : Fin 4) = 0
    ∧ win0_1.index t (0 : Fin 4) = win0_6.index t (0 : Fin 3) ∧ win0_1.index t (1 : Fin 4) = win0_6.index t (1 : Fin 3)
    ∧ win0_1.index t (2 : Fin 4) = 0 ∧ win0_1.index t (3 : Fin 4) = 0
    ∧ win0_2.index t (0 : Fin 4) = win0_6.index t (0 : Fin 3) ∧ win0_2.index t (1 : Fin 4) = win0_6.index t (1 : Fin 3)
    ∧ win0_2.index t (2 : Fin 4) = 0 ∧ win0_2.index t (3 : Fin 4) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) ≤ 1 ∧ win0_6.index t (1 : Fin 3) ≤ 249 ∧ win0_6.index t (2 : Fin 3) = 0 :=
  (by decide +kernel : ∀ t : Fin grid0.N, _)

/-- The point of batch `q0` and tile `q1`. -/
def pointOf (q0 : Fin 2) (q1 : Fin 250) : Fin cfg0.N :=
  ⟨q0.val * 250 + q1.val, by have h0 := q0.isLt; have h1 := q1.isLt; have hN : grid0.N = 500 := N_0; show _ < grid0.N; omega⟩

/-- Decided over the 500 points: the output window's block at the point of batch `q0` and tile `q1` is block `(q0, q1, 0)`. -/
theorem idx_at : ∀ (q0 : Fin 2) (q1 : Fin 250), win0_6.index (pointOf q0 q1) = ![q0.val, q1.val, 0] := by
  decide +kernel

/-- The batch of point `t`. -/
def batchOf (t : Fin cfg0.N) : Fin 2 := ⟨win0_6.index t (0 : Fin 3), by have := idx_facts t; omega⟩
/-- The tile of point `t`. -/
def tileOf (t : Fin cfg0.N) : Fin 250 := ⟨win0_6.index t (1 : Fin 3), by have := idx_facts t; omega⟩
/-- Row `p` of tile `N`. -/
def row (N : Fin 250) (p : Fin 240) : Fin 60000 := ⟨N.val * 240 + p.val, by have := N.isLt; have := p.isLt; omega⟩

theorem blk_gathered (c : Dev nD) (t : Fin cfg0.N) (p : Fin 240) (k : Fin 16) (ch : Fin 64) :
    iblk m c 0 t (ix4 (0 : Fin 1) p k ch)
      = gathered (m ((c : Thread nD τ).loc main_arg0)) (m ((c : Thread nD τ).loc main_arg1)) (ix4 (batchOf t) (row (tileOf t) p) k ch) := by
  show (V m c main_v6 : S2x60000x16x64.Idx → EReal) (((cfg0.win 0).blk t).view.emb (ix4 (0 : Fin 1) p k ch)) = _
  rw [V_gathered]
  obtain ⟨e0, e1, e2, e3, -⟩ := idx_facts t
  refine congrArg (gathered (m ((c : Thread nD τ).loc main_arg0)) (m ((c : Thread nD τ).loc main_arg1))) (funext fun a => Fin.ext ?_)
  match a with
  | ⟨0, _⟩ => show win0_0.index t (0 : Fin 4) * 1 + 1 * 0 = win0_6.index t (0 : Fin 3); omega
  | ⟨1, _⟩ => show win0_0.index t (1 : Fin 4) * 240 + 1 * p.val = win0_6.index t (1 : Fin 3) * 240 + p.val; omega
  | ⟨2, _⟩ => show win0_0.index t (2 : Fin 4) * 16 + 1 * k.val = k.val; omega
  | ⟨3, _⟩ => show win0_0.index t (3 : Fin 4) * 64 + 1 * ch.val = ch.val; omega

theorem blk_additional (c : Dev nD) (t : Fin cfg0.N) (p : Fin 240) (k : Fin 16) (ch : Fin 3) :
    iblk m c 1 t (ix4 (0 : Fin 1) p k ch)
      = m ((c : Thread nD τ).loc main_arg3) (ix4 (batchOf t) (row (tileOf t) p) k ch) := by
  show (V m c main_arg3 : S2x60000x16x3.Idx → EReal) (((cfg0.win 1).blk t).view.emb (ix4 (0 : Fin 1) p k ch)) = _
  rw [V_main_arg3]
  obtain ⟨-, -, -, -, e0, e1, e2, e3, -⟩ := idx_facts t
  refine congrArg (m ((c : Thread nD τ).loc main_arg3)) (funext fun a => Fin.ext ?_)
  match a with
  | ⟨0, _⟩ => show win0_1.index t (0 : Fin 4) * 1 + 1 * 0 = win0_6.index t (0 : Fin 3); omega
  | ⟨1, _⟩ => show win0_1.index t (1 : Fin 4) * 240 + 1 * p.val = win0_6.index t (1 : Fin 3) * 240 + p.val; omega
  | ⟨2, _⟩ => show win0_1.index t (2 : Fin 4) * 16 + 1 * k.val = k.val; omega
  | ⟨3, _⟩ => show win0_1.index t (3 : Fin 4) * 3 + 1 * ch.val = ch.val; omega

theorem blk_weights (c : Dev nD) (t : Fin cfg0.N) (p : Fin 240) (k : Fin 16) (mm : Fin 16) :
    iblk m c 2 t (ix4 (0 : Fin 1) p k mm)
      = m ((c : Thread nD τ).loc main_arg2) (ix4 (batchOf t) (row (tileOf t) p) k mm) := by
  show (V m c main_arg2 : S2x60000x16x16.Idx → EReal) (((cfg0.win 2).blk t).view.emb (ix4 (0 : Fin 1) p k mm)) = _
  rw [V_main_arg2]
  obtain ⟨-, -, -, -, -, -, -, -, e0, e1, e2, e3, -⟩ := idx_facts t
  refine congrArg (m ((c : Thread nD τ).loc main_arg2)) (funext fun a => Fin.ext ?_)
  match a with
  | ⟨0, _⟩ => show win0_2.index t (0 : Fin 4) * 1 + 1 * 0 = win0_6.index t (0 : Fin 3); omega
  | ⟨1, _⟩ => show win0_2.index t (1 : Fin 4) * 240 + 1 * p.val = win0_6.index t (1 : Fin 3) * 240 + p.val; omega
  | ⟨2, _⟩ => show win0_2.index t (2 : Fin 4) * 16 + 1 * k.val = k.val; omega
  | ⟨3, _⟩ => show win0_2.index t (3 : Fin 4) * 16 + 1 * mm.val = mm.val; omega

theorem blk_wg (c : Dev nD) (t : Fin cfg0.N) (f : Fin 1024) (o : Fin 128) :
    iblk m c 3 t (ix2 f o) = m ((c : Thread nD τ).loc main_arg4) (ix2 o (colG f)) := by
  refine Eq.trans ?_ (V_wg_apply m c f o)
  show (V m c main_v8 : S1024x128.Idx → EReal) (((cfg0.win 3).blk t).view.emb (ix2 f o)) = _
  obtain ⟨-, -, -, -, -, -, -, -, -, -, -, -, e0, e1, -⟩ := idx_facts t
  refine congrArg (V m c main_v8 : S1024x128.Idx → EReal) (funext fun a => Fin.ext ?_)
  match a with
  | ⟨0, _⟩ => show win0_3.index t (0 : Fin 2) * 1024 + 1 * f.val = f.val; omega
  | ⟨1, _⟩ => show win0_3.index t (1 : Fin 2) * 128 + 1 * o.val = o.val; omega

theorem blk_wa (c : Dev nD) (t : Fin cfg0.N) (f : Fin 48) (o : Fin 128) :
    iblk m c 4 t (ix2 f o) = m ((c : Thread nD τ).loc main_arg4) (ix2 o (colA f)) := by
  refine Eq.trans ?_ (V_wa_apply m c f o)
  show (V m c main_v10 : S48x128.Idx → EReal) (((cfg0.win 4).blk t).view.emb (ix2 f o)) = _
  obtain ⟨-, -, -, -, -, -, -, -, -, -, -, -, -, -, e0, e1, -⟩ := idx_facts t
  refine congrArg (V m c main_v10 : S48x128.Idx → EReal) (funext fun a => Fin.ext ?_)
  match a with
  | ⟨0, _⟩ => show win0_4.index t (0 : Fin 2) * 48 + 1 * f.val = f.val; omega
  | ⟨1, _⟩ => show win0_4.index t (1 : Fin 2) * 128 + 1 * o.val = o.val; omega

theorem blk_bias (c : Dev nD) (t : Fin cfg0.N) (o : Fin 128) :
    iblk m c 5 t (ix2 (0 : Fin 1) o) = m ((c : Thread nD τ).loc main_arg5) (ix1 o) := by
  refine Eq.trans ?_ (V_bias_apply m c o)
  show (V m c main_v11 : S1x128.Idx → EReal) (((cfg0.win 5).blk t).view.emb (ix2 (0 : Fin 1) o)) = _
  obtain ⟨-, -, -, -, -, -, -, -, -, -, -, -, -, -, -, -, e0, e1, -⟩ := idx_facts t
  refine congrArg (V m c main_v11 : S1x128.Idx → EReal) (funext fun a => Fin.ext ?_)
  match a with
  | ⟨0, _⟩ => show win0_5.index t (0 : Fin 2) * 1 + 1 * 0 = 0; omega
  | ⟨1, _⟩ => show win0_5.index t (1 : Fin 2) * 128 + 1 * o.val = o.val; omega

/-! ## One stored entry is one entry of `G` -/

/-- If the six blocks are the rows of tile `N` of batch `B` of the whole arrays (and the shared arrays), the entry of
    the stored block at `y` is `G` of the whole arrays at the array index `i` that `y` sits at. -/
theorem point_eq (g : S2x60000x16x64.Idx → EReal) (a : S2x60000x16x3.Idx → EReal) (w : S2x60000x16x16.Idx → EReal)
    (W : S128x1072.Idx → EReal) (bias : S128.Idx → EReal)
    (x0 : Vec Ideal S1x240x16x64 .f32) (x1 : Vec Ideal S1x240x16x3 .f32) (x2 : Vec Ideal S1x240x16x16 .f32)
    (x3 : Vec Ideal S1024x128 .f32) (x4 : Vec Ideal S48x128 .f32) (x5 : Vec Ideal S1x128 .f32) (B : Fin 2) (N : Fin 250)
    (h0 : ∀ (p : Fin 240) (k : Fin 16) (ch : Fin 64), x0 (ix4 (0 : Fin 1) p k ch) = g (ix4 B (row N p) k ch))
    (h1 : ∀ (p : Fin 240) (k : Fin 16) (ch : Fin 3), x1 (ix4 (0 : Fin 1) p k ch) = a (ix4 B (row N p) k ch))
    (h2 : ∀ (p : Fin 240) (k : Fin 16) (mm : Fin 16), x2 (ix4 (0 : Fin 1) p k mm) = w (ix4 B (row N p) k mm))
    (h3 : ∀ (f : Fin 1024) (o : Fin 128), x3 (ix2 f o) = W (ix2 o (colG f)))
    (h4 : ∀ (f : Fin 48) (o : Fin 128), x4 (ix2 f o) = W (ix2 o (colA f)))
    (h5 : ∀ o : Fin 128, x5 (ix2 (0 : Fin 1) o) = bias (ix1 o))
    (y : S1x240x128.Idx) (i : S2x60000x128.Idx)
    (hi0 : (i 0).val = B.val) (hi1 : (i 1).val = N.val * 240 + (y 1).val) (hi2 : (i 2).val = (y 2).val) :
    k0_pay1 (F := Ideal) x0 x1 x2 x3 x4 x5 y = G g a w W bias i := by
  obtain ⟨y0, p, o, rfl⟩ : ∃ (y0 : Fin 1) (p : Fin 240) (o : Fin 128), y = ix3 y0 p o := ⟨y 0, y 1, y 2, eq_ix3 y⟩
  have hy0 : y0 = 0 := Fin.ext (by have := y0.isLt; omega)
  subst hy0
  have hi : i = ix3 B (row N p) o := by
    funext d
    match d with
    | ⟨0, _⟩ => exact Fin.ext hi0
    | ⟨1, _⟩ => exact Fin.ext hi1
    | ⟨2, _⟩ => exact Fin.ext hi2
  rw [hi, Payload.pay_apply, G_apply]
  unfold Gat
  simp only [h0, h1, h2, h3, h4, h5]

/-! ## The blocks, the cover, the array -/

/-- The whole output array of the idealized kernel, as a function of the launch contents of the arguments. -/
def Gk (c : Dev nD) : S2x60000x128.Idx → EReal :=
  G (gathered (m ((c : Thread nD τ).loc main_arg0)) (m ((c : Thread nD τ).loc main_arg1)))
    (m ((c : Thread nD τ).loc main_arg3)) (m ((c : Thread nD τ).loc main_arg2))
    (m ((c : Thread nD τ).loc main_arg4)) (m ((c : Thread nD τ).loc main_arg5))

/-- What point `t` writes back is block `t` of the whole output array. -/
theorem flushed_eq (c : Dev nD) (t : Fin cfg0.N) :
    (dats m 0 c).flushed 6 t = ((cfg0.win 6).blk t).view.read (Elt Ideal) (Gk m c) := by
  rw [Cert.KernelIdeal.Value.flushed6]
  unfold out0_6
  rw [View.canon_unit_zero hz3]
  simp only [View.ld_unit_zero (S := S1x240x16x64) hz4, View.ld_unit_zero (S := S1x240x16x3) hz4,
    View.ld_unit_zero (S := S1x240x16x16) hz4, View.ld_unit_zero (S := S1024x128) hz2,
    View.ld_unit_zero (S := S48x128) hz2, View.ld_unit_zero (S := S1x128) hz2]
  funext y
  show k0_pay1 (F := Ideal) (iblk m c 0 t) (iblk m c 1 t) (iblk m c 2 t) (iblk m c 3 t) (iblk m c 4 t) (iblk m c 5 t) y
    = Gk m c (((cfg0.win 6).blk t).view.emb y)
  obtain ⟨-, -, -, -, -, -, -, -, -, -, -, -, -, -, -, -, -, -, b0, b1, e2⟩ := idx_facts t
  refine point_eq _ _ _ _ _ (iblk m c 0 t) (iblk m c 1 t) (iblk m c 2 t) (iblk m c 3 t) (iblk m c 4 t) (iblk m c 5 t)
    (batchOf t) (tileOf t) (blk_gathered m c t) (blk_additional m c t) (blk_weights m c t) (blk_wg m c t) (blk_wa m c t)
    (blk_bias m c t) y (((cfg0.win 6).blk t).view.emb y) ?_ ?_ ?_
  · show win0_6.index t (0 : Fin 3) * 1 + 1 * (y 0).val = win0_6.index t (0 : Fin 3)
    have hy : (y 0).val < 1 := (y 0).isLt
    omega
  · show win0_6.index t (1 : Fin 3) * 240 + 1 * (y 1).val = win0_6.index t (1 : Fin 3) * 240 + (y 1).val
    omega
  · show win0_6.index t (2 : Fin 3) * 128 + 1 * (y 2).val = (y 2).val
    omega

/-- An index of the output array is in point `t`'s block iff each coordinate is in the block's range on its axis. -/
theorem mem_blk (t : Fin cfg0.N) (i : S2x60000x128.Idx) :
    i ∈ ((cfg0.win 6).blk t).view.set ↔ ∀ a : Fin 3, win0_6.index t a * S1x240x128.size a ≤ (i a).val
      ∧ (i a).val < win0_6.index t a * S1x240x128.size a + S1x240x128.size a := by
  show i ∈ ((View.whole main_v12).slice (win0_6.rect t)).set ↔ _
  rw [View.set_slice_whole, Rect.mem_set_unit]
  exact Iff.rfl

/-- Row `n` of batch `b` is in the block of the point of batch `b` and tile `n / 240`. -/
theorem cover (i : S2x60000x128.Idx) :
    ∃ t : Fin cfg0.N, (cfg0.win 6).flush t = true ∧ i ∈ ((cfg0.win 6).blk t).view.set := by
  have h0 : (i 0).val < 2 := (i 0).isLt
  have h1 : (i 1).val < 60000 := (i 1).isLt
  have h2 : (i 2).val < 128 := (i 2).isLt
  have e := idx_at ⟨(i 0).val, h0⟩ ⟨(i 1).val / 240, by omega⟩
  have q0 : win0_6.index (pointOf ⟨(i 0).val, h0⟩ ⟨(i 1).val / 240, by omega⟩) (0 : Fin 3) = (i 0).val := congrFun e 0
  have q1 : win0_6.index (pointOf ⟨(i 0).val, h0⟩ ⟨(i 1).val / 240, by omega⟩) (1 : Fin 3) = (i 1).val / 240 := congrFun e 1
  have q2 : win0_6.index (pointOf ⟨(i 0).val, h0⟩ ⟨(i 1).val / 240, by omega⟩) (2 : Fin 3) = 0 := congrFun e 2
  refine ⟨pointOf ⟨(i 0).val, h0⟩ ⟨(i 1).val / 240, by omega⟩, flush0_6 _, ?_⟩
  rw [mem_blk]
  intro a
  match a with
  | ⟨0, _⟩ =>
    show win0_6.index _ (0 : Fin 3) * 1 ≤ (i 0).val ∧ (i 0).val < win0_6.index _ (0 : Fin 3) * 1 + 1
    rw [q0]; omega
  | ⟨1, _⟩ =>
    show win0_6.index _ (1 : Fin 3) * 240 ≤ (i 1).val ∧ (i 1).val < win0_6.index _ (1 : Fin 3) * 240 + 240
    rw [q1]; omega
  | ⟨2, _⟩ =>
    show win0_6.index _ (2 : Fin 3) * 128 ≤ (i 2).val ∧ (i 2).val < win0_6.index _ (2 : Fin 3) * 128 + 128
    rw [q2]; omega

/-- After the run the output array is `G` of the launch contents of the arguments. -/
theorem final (c : Dev nD) : (dats m 0 c).arrAt 6 cfg0.N = Gk m c :=
  (dats m 0 c).arrAt_eq_of_cover 6 (Gk m c) (fun t _ => flushed_eq m c t) cover

/-- The idealized kernel's run: every weakly fair execution terminates with the output array at `G` of the arguments
    and the arguments unchanged. -/
theorem run : θ_run defs (onTc (τ := τ) (main (F := Ideal))) ⟨m, fun _ => 0, ρ⟩ fun r => ∀ c : Dev nD,
      r.2.mem ((c : Thread nD τ).loc main_v12) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.PConvLinear.KernelValue

end
-- ==== Proof.RefValue.lean ====
/-
  The reference, read at one entry, is the same function `G`.

  The reference joins the gathered and the additional features along the channel axis (67 channels), contracts the
  neighbours against the weights (`P (b, n, c, m) = ∑ k, x (b, n, k, c) · w (b, n, k, m)`), flattens `(c, m)` to the column
  `c · 16 + m`, contracts the 1072 columns against the rows of the projection matrix and adds the bias. Entry
  `(b, n, o)` of the result is therefore `outAtCat` of the point's rows (`ref_at`): column `f` of the flattened array is
  channel `f / 16`, weight column `f % 16`. A joined channel below 64 is a gathered one, a joined channel `64 + c` is the
  additional channel `c`; with that the law of the specification turns the one sum over 1072 columns into the two
  sums of `G` (`ref_eq`).
-/
import proofs.«145308_j4097398800823_2_alg».proof.Proof.Gen.ReferenceIdeal.Read
import proofs.«145308_j4097398800823_2_alg».proof.Proof.Spec
import Idealize.ShloMosaic.Lib.Pipeline.Value
import Idealize.ShloMosaic.Lib.ValueIdx

noncomputable section

namespace Cert.PConvLinear.RefValue

open Cert.ReferenceIdeal Cert.ReferenceIdeal.Gen Cert.ReferenceIdeal.Read Idealize.ShloMosaic Idealize.ShloMosaic.ValueIdx

/-! ## The index functions of the reference's stages, on coordinates -/

theorem l10 (b : Fin 2) (n : Fin 60000) (o : Fin 128) (f : Fin 1072) : lidx_main_v10 (ix3 b n o) f = ix3 b n f :=
  funext fun a => match a with
    | ⟨0, _⟩ => rfl
    | ⟨1, _⟩ => rfl
    | ⟨2, _⟩ => rfl

theorem r10 (b : Fin 2) (n : Fin 60000) (o : Fin 128) (f : Fin 1072) : ridx_main_v10 (ix3 b n o) f = ix2 o f :=
  funext fun a => match a with
    | ⟨0, _⟩ => rfl
    | ⟨1, _⟩ => rfl

/-- Column `f` of the flattened aggregate is channel `f / 16`, weight column `f % 16`, of the same batch and point. -/
theorem i9 (b : Fin 2) (n : Fin 60000) (f : Fin 1072) : idx_main_v9 (ix3 b n f) = ix4 b n (ch67 f) (mid f) := by
  have hb := b.isLt
  have hn := n.isLt
  have hf := f.isLt
  funext a
  apply Fin.ext
  match a with
  | ⟨0, _⟩ => show ((b.val * 60000 + n.val) * 1072 + f.val) / 64320000 = b.val; omega
  | ⟨1, _⟩ => show ((b.val * 60000 + n.val) * 1072 + f.val) / 1072 % 60000 = n.val; omega
  | ⟨2, _⟩ => show ((b.val * 60000 + n.val) * 1072 + f.val) / 16 % 67 = f.val / 16; omega
  | ⟨3, _⟩ => show ((b.val * 60000 + n.val) * 1072 + f.val) % 16 = f.val % 16; omega

theorem l8 (b : Fin 2) (n : Fin 60000) (c : Fin 67) (mm : Fin 16) (k : Fin 16) : lidx_main_v8 (ix4 b n c mm) k = ix4 b n k c :=
  funext fun a => match a with
    | ⟨0, _⟩ => rfl
    | ⟨1, _⟩ => rfl
    | ⟨2, _⟩ => rfl
    | ⟨3, _⟩ => rfl

theorem r8 (b : Fin 2) (n : Fin 60000) (c : Fin 67) (mm : Fin 16) (k : Fin 16) : ridx_main_v8 (ix4 b n c mm) k = ix4 b n k mm :=
  funext fun a => match a with
    | ⟨0, _⟩ => rfl
    | ⟨1, _⟩ => rfl
    | ⟨2, _⟩ => rfl
    | ⟨3, _⟩ => rfl

/-! ## The joined channels -/

/-- A joined channel below 64 is the gathered channel. -/
theorem cat_left (x0 : (⟨S2x60000x64, .f32⟩ : BufTy).Contents (Elt Ideal)) (x1 : (⟨S2x60000x16, .i32⟩ : BufTy).Contents (Elt Ideal))
    (x3 : (⟨S2x60000x16x3, .f32⟩ : BufTy).Contents (Elt Ideal)) (b : Fin 2) (n : Fin 60000) (k : Fin 16) (c : Fin 64) :
    val_main_v7 (F := Ideal) x0 x1 x3 (ix4 b n k (⟨c.val, by have := c.isLt; omega⟩ : Fin 67))
      = val_main_v6 (F := Ideal) x0 x1 (ix4 b n k c) := by
  unfold val_main_v7
  exact concatenate_pair_apply_left 3 _ _ concatenates_S2x60000x16x64_S2x60000x16x3_S2x60000x16x67_d3 _ rfl (ix4 b n k c)
    fun d => match d with
      | ⟨0, _⟩ => rfl
      | ⟨1, _⟩ => rfl
      | ⟨2, _⟩ => rfl
      | ⟨3, _⟩ => rfl

/-- The joined channel `64 + c` is the additional channel `c`. -/
theorem cat_right (x0 : (⟨S2x60000x64, .f32⟩ : BufTy).Contents (Elt Ideal)) (x1 : (⟨S2x60000x16, .i32⟩ : BufTy).Contents (Elt Ideal))
    (x3 : (⟨S2x60000x16x3, .f32⟩ : BufTy).Contents (Elt Ideal)) (b : Fin 2) (n : Fin 60000) (k : Fin 16) (c : Fin 3) :
    val_main_v7 (F := Ideal) x0 x1 x3 (ix4 b n k (⟨64 + c.val, by have := c.isLt; omega⟩ : Fin 67))
      = x3 (ix4 b n k c) := by
  unfold val_main_v7
  refine concatenate_pair_apply_right 3 _ _ concatenates_S2x60000x16x64_S2x60000x16x3_S2x60000x16x67_d3 _ rfl rfl (ix4 b n k c)
    (fun d hd => ?_) ?_
  · match d with
    | ⟨0, _⟩ => rfl
    | ⟨1, _⟩ => rfl
    | ⟨2, _⟩ => rfl
    | ⟨3, _⟩ => exact absurd rfl hd
  · show c.val + 64 = 64 + c.val
    omega

/-! ## The reference at an entry -/

theorem ref_at (x0 : (⟨S2x60000x64, .f32⟩ : BufTy).Contents (Elt Ideal)) (x1 : (⟨S2x60000x16, .i32⟩ : BufTy).Contents (Elt Ideal))
    (x2 : (⟨S2x60000x16x16, .f32⟩ : BufTy).Contents (Elt Ideal)) (x3 : (⟨S2x60000x16x3, .f32⟩ : BufTy).Contents (Elt Ideal))
    (x4 : (⟨S128x1072, .f32⟩ : BufTy).Contents (Elt Ideal)) (x5 : (⟨S128, .f32⟩ : BufTy).Contents (Elt Ideal))
    (b : Fin 2) (n : Fin 60000) (o : Fin 128) :
    val_main_v13 (F := Ideal) x0 x1 x2 x3 x4 x5 (ix3 b n o)
      = outAtCat (fun k c => val_main_v7 (F := Ideal) x0 x1 x3 (ix4 b n k c)) (fun k mm => x2 (ix4 b n k mm))
          (fun f => x4 (ix2 o f)) (x5 (ix1 o)) := by
  rw [val_main_v13_apply, val_main_v10_apply, val_main_v12_apply, val_main_v11_apply]
  unfold outAtCat
  show (∑ f : Fin 1072, _) + _ = (∑ f : Fin 1072, _) + _
  refine congrArg₂ (· + ·) (Finset.sum_congr rfl fun f _ => ?_) ?_
  · rw [l10 b n o f, r10 b n o f, val_main_v9_apply, i9 b n f, val_main_v8_apply]
    refine congrArg (· * x4 (ix2 o f)) (Finset.sum_congr rfl fun k _ => ?_)
    rw [l8, r8]
  · exact congrArg x5 (funext fun a => match a with | ⟨0, _⟩ => rfl)

/-- The reference's result is `G` of the gathered features, the additional features, the weights, the projection
    matrix and the bias. -/
theorem ref_eq (x0 : (⟨S2x60000x64, .f32⟩ : BufTy).Contents (Elt Ideal)) (x1 : (⟨S2x60000x16, .i32⟩ : BufTy).Contents (Elt Ideal))
    (x2 : (⟨S2x60000x16x16, .f32⟩ : BufTy).Contents (Elt Ideal)) (x3 : (⟨S2x60000x16x3, .f32⟩ : BufTy).Contents (Elt Ideal))
    (x4 : (⟨S128x1072, .f32⟩ : BufTy).Contents (Elt Ideal)) (x5 : (⟨S128, .f32⟩ : BufTy).Contents (Elt Ideal)) :
    val_main_v13 (F := Ideal) x0 x1 x2 x3 x4 x5 = G (val_main_v6 (F := Ideal) x0 x1) x3 x2 x4 x5 := by
  funext j
  obtain ⟨b, n, o, rfl⟩ : ∃ (b : Fin 2) (n : Fin 60000) (o : Fin 128), j = ix3 b n o := ⟨j 0, j 1, j 2, eq_ix3 j⟩
  rw [ref_at, G_apply]
  unfold Gat
  exact outAtCat_eq _ _ _ _ _ _ (fun k c => cat_left x0 x1 x3 b n k c) (fun k c => cat_right x0 x1 x3 b n k c)

end Cert.PConvLinear.RefValue

end
-- ==== Proof.Claims.lean ====
/-
  The five claims.

  The two kernels' frames are the generated frame certificates. The reference has no kernel: its frame is its run with
  the result dropped. The idealization rewrote nothing, so `preserves` is `True`. For `algebraic`: the idealized kernel
  ends with its output array at `G` of the gathered features, the additional features, the weights, the projection
  matrix and the bias as launched (the kernel's value); the reference ends at the composed term of its operations, which
  read at an entry is the same `G` (the reference's value) of arguments that agree with the kernel's. The neighbour lookup
  is the same function on both sides: the same operations with the same dimension numbers.
-/
import proofs.«145308_j4097398800823_2_alg».proof.Defs
import proofs.«145308_j4097398800823_2_alg».proof.Proof.Gen.Kernel.Frame
import proofs.«145308_j4097398800823_2_alg».proof.Proof.Gen.Pre_finite_inputs
import proofs.«145308_j4097398800823_2_alg».proof.Proof.KernelValue
import proofs.«145308_j4097398800823_2_alg».proof.Proof.RefValue

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's neighbour lookup and the reference's are one function. -/
theorem gathered_eq (x : Cert.KernelIdeal.S2x60000x64.Idx → EReal) (idx : Cert.KernelIdeal.S2x60000x16.Idx → BitVec 32) :
    Cert.PConvLinear.KernelValue.gathered x idx = Cert.ReferenceIdeal.Read.val_main_v6 (F := Ideal) x idx := rfl

theorem algebraic : Cert.algebraic_KernelIdeal_ReferenceIdeal := by
  intro m ρ m' ρ' _ hagree
  refine ⟨fun c => Cert.PConvLinear.KernelValue.Gk m c, Cert.PConvLinear.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.PConvLinear.RefValue.ref_eq, (hagree c).1, (hagree c).2.1,
    (hagree c).2.2.1, (hagree c).2.2.2.1, (hagree c).2.2.2.2.1, (hagree c).2.2.2.2.2]
  show _ = Cert.PConvLinear.KernelValue.Gk m c
  unfold Cert.PConvLinear.KernelValue.Gk
  rw [gathered_eq]

end Cert.Proof.Claims

end
-- ==== Proof.lean ====
/- The proof of `Cert.Claim`: the idealized kernel and the idealized reference compute one function.

   For every batch `b`, point `n` and output feature `o` both programs end with
   `∑ f, (∑ k, x (b, n, k, f / 16) · w (b, n, k, f % 16)) · W (o, f) + bias o`, where `x` lists the 64 gathered channels and
   then the 3 additional ones and `f` runs over the `67 · 16 = 1072` flattened columns. The reference takes the sum over
   all 1072 columns at once; the kernel takes the first 1024 columns and the last 48 as two products and adds them. The
   two agree on the extended reals because addition there is commutative and associative (Proof/Spec.lean); no
   finiteness of the inputs is needed. Proof/Payload.lean reads the kernel body's stored block at an entry,
   Proof/KernelValue.lean lifts that from blocks to the whole array, Proof/RefValue.lean reads the reference at an entry,
   Proof/Claims.lean states the five claims; the witnesses of the programs' stated facts come first. -/
import proofs.«145308_j4097398800823_2_alg».proof.Defs
import proofs.«145308_j4097398800823_2_alg».proof.Proof.Claims
import proofs.«145308_j4097398800823_2_alg».proof.Proof.Gen.Kernel
import proofs.«145308_j4097398800823_2_alg».proof.Proof.Gen.KernelIdeal
import proofs.«145308_j4097398800823_2_alg».proof.Proof.Gen.ReferenceIdeal
import proofs.«145308_j4097398800823_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
